-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel

variable [Facts]

def fn {F : FTy → Type} [FloatOps F] (main_arg0 : FVec F S67108864 .f32) (main_arg1 : FVec F S67108864 .f32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  let main_v4 : FVec F S67108864 .f32 := Host.absf main_arg1
  let main_cst_0 : FVec F S_ .f32 := constant S_ .f32 0x7F800000#32
  let main_v5 : FVec F S67108864 .f32 := broadcastInDim S67108864 ![] bcast_S_S67108864 main_cst_0
  let main_v6 : IVec S67108864 1 := cmpf .olt main_v4 main_v5
  let main_c_1 : IVec S_ 1 := constantI S_ 1 1#1
  let main_v7 : IVec S_ 1 := (fun x v => Host.reduce IntOp.andi x v reducesTo_S67108864_S_d0 h_S_) main_v6 main_c_1
  let main_v8 : IVec S_ 1 := andi main_v3 main_v7
  main_v8
-- ==== Kernel.lean ====
abbrev S67108864 : Shape := ⟨1, ![67108864]⟩
abbrev S524288x128 : Shape := ⟨2, ![524288, 128]⟩
abbrev S2x45x128 : Shape := ⟨3, ![2, 45, 128]⟩
abbrev S4096x128 : Shape := ⟨2, ![4096, 128]⟩
abbrev S1x45x128 : Shape := ⟨3, ![1, 45, 128]⟩
abbrev S128 : Shape := ⟨1, ![128]⟩
abbrev S1x128 : Shape := ⟨2, ![1, 128]⟩
abbrev S1x1x128 : Shape := ⟨3, ![1, 1, 128]⟩
abbrev S_ : Shape := ⟨0, ![]⟩
abbrev S45x128 : Shape := ⟨2, ![45, 128]⟩
abbrev S45 : Shape := ⟨1, ![45]⟩
abbrev S15 : Shape := ⟨1, ![15]⟩
abbrev S1 : Shape := ⟨1, ![1]⟩

abbrev nBuf : Space → Nat
  | .hbm => 34
  | .vmem => 6
  | .smem => 0
  | _ => 0

abbrev bufTy : (tb : Table) → Fin (tcTables nBuf tb) → BufTy
  | .hbm, ⟨0, _⟩ => ⟨S67108864, .f32⟩
  | .hbm, ⟨1, _⟩ => ⟨S67108864, .f32⟩
  | .hbm, ⟨2, _⟩ => ⟨S524288x128, .f32⟩
  | .hbm, ⟨3, _⟩ => ⟨S524288x128, .f32⟩
  | .hbm, ⟨4, _⟩ => ⟨S2x45x128, .f32⟩
  | .hbm, ⟨5, _⟩ => ⟨S_, .f32⟩
  | .hbm, ⟨6, _⟩ => ⟨S45x128, .f32⟩
  | .hbm, ⟨7, _⟩ => ⟨S_, .f32⟩
  | .hbm, ⟨8, _⟩ => ⟨S45, .f32⟩
  | .hbm, ⟨9, _⟩ => ⟨S15, .f32⟩
  | .hbm, ⟨10, _⟩ => ⟨S15, .f32⟩
  | .hbm, ⟨11, _⟩ => ⟨S15, .f32⟩
  | .hbm, ⟨12, _⟩ => ⟨S_, .f32⟩
  | .hbm, ⟨13, _⟩ => ⟨S15, .f32⟩
  | .hbm, ⟨14, _⟩ => ⟨S15, .i1⟩
  | .hbm, ⟨15, _⟩ => ⟨S_, .f32⟩
  | .hbm, ⟨16, _⟩ => ⟨S_, .f32⟩
  | .hbm, ⟨17, _⟩ => ⟨S15, .f32⟩
  | .hbm, ⟨18, _⟩ => ⟨S15, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S_, .f32⟩
  | .hbm, ⟨24, _⟩ => ⟨S15, .f32⟩
  | .hbm, ⟨25, _⟩ => ⟨S15, .f32⟩
  | .hbm, ⟨26, _⟩ => ⟨S15, .f32⟩
  | .hbm, ⟨27, _⟩ => ⟨S_, .f32⟩
  | .hbm, ⟨28, _⟩ => ⟨S_, .f32⟩
  | .hbm, ⟨29, _⟩ => ⟨S15, .f32⟩
  | .hbm, ⟨30, _⟩ => ⟨S15, .f32⟩
  | .hbm, ⟨31, _⟩ => ⟨S_, .f32⟩
  | .hbm, ⟨32, _⟩ => ⟨S_, .f32⟩
  | .hbm, ⟨33, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x45x128, .f32⟩
  | .local _ .vmem, ⟨5, _⟩ => ⟨S1x45x128, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x45x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S67108864_S524288x128 : S67108864.ShapeCasts S524288x128
  inb_S1x45x128_S1x45x128_0_0_0 : ∀ a, (![0, 0, 0] : Fin 3 → Nat) a + S1x45x128.size a ≤ S1x45x128.size a
  h_S1x45x128 : 0 < S1x45x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S128 : S4096x128.Reduces [0] S128
  shapeCasts_S128_S1x128 : S128.ShapeCasts S1x128
  natLt_1_32 : 1 < 32
  inb_S1x45x128_S1x1x128_0_0_0 : ∀ a, (![0, 0, 0] : Fin 3 → Nat) a + S1x1x128.size a ≤ S1x45x128.size a
  h_S1x1x128 : 0 < S1x1x128.numel
  shapeCasts_S1x1x128_S1x1x128 : S1x1x128.ShapeCasts S1x1x128
  shapeCasts_S1x128_S1x1x128 : S1x128.ShapeCasts S1x1x128
  inb_S1x45x128_S1x1x128_0_15_0 : ∀ a, (![0, 15, 0] : Fin 3 → Nat) a + S1x1x128.size a ≤ S1x45x128.size a
  inb_S1x45x128_S1x1x128_0_30_0 : ∀ a, (![0, 30, 0] : Fin 3 → Nat) a + S1x1x128.size a ≤ S1x45x128.size a
  inb_S1x45x128_S1x1x128_0_1_0 : ∀ a, (![0, 1, 0] : Fin 3 → Nat) a + S1x1x128.size a ≤ S1x45x128.size a
  inb_S1x45x128_S1x1x128_0_16_0 : ∀ a, (![0, 16, 0] : Fin 3 → Nat) a + S1x1x128.size a ≤ S1x45x128.size a
  inb_S1x45x128_S1x1x128_0_31_0 : ∀ a, (![0, 31, 0] : Fin 3 → Nat) a + S1x1x128.size a ≤ S1x45x128.size a
  inb_S1x45x128_S1x1x128_0_2_0 : ∀ a, (![0, 2, 0] : Fin 3 → Nat) a + S1x1x128.size a ≤ S1x45x128.size a
  inb_S1x45x128_S1x1x128_0_17_0 : ∀ a, (![0, 17, 0] : Fin 3 → Nat) a + S1x1x128.size a ≤ S1x45x128.size a
  inb_S1x45x128_S1x1x128_0_32_0 : ∀ a, (![0, 32, 0] : Fin 3 → Nat) a + S1x1x128.size a ≤ S1x45x128.size a
  inb_S1x45x128_S1x1x128_0_3_0 : ∀ a, (![0, 3, 0] : Fin 3 → Nat) a + S1x1x128.size a ≤ S1x45x128.size a
  inb_S1x45x128_S1x1x128_0_18_0 : ∀ a, (![0, 18, 0] : Fin 3 → Nat) a + S1x1x128.size a ≤ S1x45x128.size a
  inb_S1x45x128_S1x1x128_0_33_0 : ∀ a, (![0, 33, 0] : Fin 3 → Nat) a + S1x1x128.size a ≤ S1x45x128.size a
  inb_S1x45x128_S1x1x128_0_4_0 : ∀ a, (![0, 4, 0] : Fin 3 → Nat) a + S1x1x128.size a ≤ S1x45x128.size a
  inb_S1x45x128_S1x1x128_0_19_0 : ∀ a, (![0, 19, 0] : Fin 3 → Nat) a + S1x1x128.size a ≤ S1x45x128.size a
  inb_S1x45x128_S1x1x128_0_34_0 : ∀ a, (![0, 34, 0] : Fin 3 → Nat) a + S1x1x128.size a ≤ S1x45x128.size a
  inb_S1x45x128_S1x1x128_0_5_0 : ∀ a, (![0, 5, 0] : Fin 3 → Nat) a + S1x1x128.size a ≤ S1x45x128.size a
  inb_S1x45x128_S1x1x128_0_20_0 : ∀ a, (![0, 20, 0] : Fin 3 → Nat) a + S1x1x128.size a ≤ S1x45x128.size a
  inb_S1x45x128_S1x1x128_0_35_0 : ∀ a, (![0, 35, 0] : Fin 3 → Nat) a + S1x1x128.size a ≤ S1x45x128.size a
  inb_S1x45x128_S1x1x128_0_6_0 : ∀ a, (![0, 6, 0] : Fin 3 → Nat) a + S1x1x128.size a ≤ S1x45x128.size a
  inb_S1x45x128_S1x1x128_0_21_0 : ∀ a, (![0, 21, 0] : Fin 3 → Nat) a + S1x1x128.size a ≤ S1x45x128.size a
  inb_S1x45x128_S1x1x128_0_36_0 : ∀ a, (![0, 36, 0] : Fin 3 → Nat) a + S1x1x128.size a ≤ S1x45x128.size a
  inb_S1x45x128_S1x1x128_0_7_0 : ∀ a, (![0, 7, 0] : Fin 3 → Nat) a + S1x1x128.size a ≤ S1x45x128.size a
  inb_S1x45x128_S1x1x128_0_22_0 : ∀ a, (![0, 22, 0] : Fin 3 → Nat) a + S1x1x128.size a ≤ S1x45x128.size a
  inb_S1x45x128_S1x1x128_0_37_0 : ∀ a, (![0, 37, 0] : Fin 3 → Nat) a + S1x1x128.size a ≤ S1x45x128.size a
  inb_S1x45x128_S1x1x128_0_8_0 : ∀ a, (![0, 8, 0] : Fin 3 → Nat) a + S1x1x128.size a ≤ S1x45x128.size a
  inb_S1x45x128_S1x1x128_0_23_0 : ∀ a, (![0, 23, 0] : Fin 3 → Nat) a + S1x1x128.size a ≤ S1x45x128.size a
  inb_S1x45x128_S1x1x128_0_38_0 : ∀ a, (![0, 38, 0] : Fin 3 → Nat) a + S1x1x128.size a ≤ S1x45x128.size a
  inb_S1x45x128_S1x1x128_0_9_0 : ∀ a, (![0, 9, 0] : Fin 3 → Nat) a + S1x1x128.size a ≤ S1x45x128.size a
  inb_S1x45x128_S1x1x128_0_24_0 : ∀ a, (![0, 24, 0] : Fin 3 → Nat) a + S1x1x128.size a ≤ S1x45x128.size a
  inb_S1x45x128_S1x1x128_0_39_0 : ∀ a, (![0, 39, 0] : Fin 3 → Nat) a + S1x1x128.size a ≤ S1x45x128.size a
  inb_S1x45x128_S1x1x128_0_10_0 : ∀ a, (![0, 10, 0] : Fin 3 → Nat) a + S1x1x128.size a ≤ S1x45x128.size a
  inb_S1x45x128_S1x1x128_0_25_0 : ∀ a, (![0, 25, 0] : Fin 3 → Nat) a + S1x1x128.size a ≤ S1x45x128.size a
  inb_S1x45x128_S1x1x128_0_40_0 : ∀ a, (![0, 40, 0] : Fin 3 → Nat) a + S1x1x128.size a ≤ S1x45x128.size a
  inb_S1x45x128_S1x1x128_0_11_0 : ∀ a, (![0, 11, 0] : Fin 3 → Nat) a + S1x1x128.size a ≤ S1x45x128.size a
  inb_S1x45x128_S1x1x128_0_26_0 : ∀ a, (![0, 26, 0] : Fin 3 → Nat) a + S1x1x128.size a ≤ S1x45x128.size a
  inb_S1x45x128_S1x1x128_0_41_0 : ∀ a, (![0, 41, 0] : Fin 3 → Nat) a + S1x1x128.size a ≤ S1x45x128.size a
  inb_S1x45x128_S1x1x128_0_12_0 : ∀ a, (![0, 12, 0] : Fin 3 → Nat) a + S1x1x128.size a ≤ S1x45x128.size a
  inb_S1x45x128_S1x1x128_0_27_0 : ∀ a, (![0, 27, 0] : Fin 3 → Nat) a + S1x1x128.size a ≤ S1x45x128.size a
  inb_S1x45x128_S1x1x128_0_42_0 : ∀ a, (![0, 42, 0] : Fin 3 → Nat) a + S1x1x128.size a ≤ S1x45x128.size a
  inb_S1x45x128_S1x1x128_0_13_0 : ∀ a, (![0, 13, 0] : Fin 3 → Nat) a + S1x1x128.size a ≤ S1x45x128.size a
  inb_S1x45x128_S1x1x128_0_28_0 : ∀ a, (![0, 28, 0] : Fin 3 → Nat) a + S1x1x128.size a ≤ S1x45x128.size a
  inb_S1x45x128_S1x1x128_0_43_0 : ∀ a, (![0, 43, 0] : Fin 3 → Nat) a + S1x1x128.size a ≤ S1x45x128.size a
  inb_S1x45x128_S1x1x128_0_14_0 : ∀ a, (![0, 14, 0] : Fin 3 → Nat) a + S1x1x128.size a ≤ S1x45x128.size a
  inb_S1x45x128_S1x1x128_0_29_0 : ∀ a, (![0, 29, 0] : Fin 3 → Nat) a + S1x1x128.size a ≤ S1x45x128.size a
  inb_S1x45x128_S1x1x128_0_44_0 : ∀ a, (![0, 44, 0] : Fin 3 → Nat) a + S1x1x128.size a ≤ S1x45x128.size a
  reducesTo_S2x45x128_S45x128_d0 : S2x45x128.ReducesTo [0] S45x128
  h_S_ : 0 < S_.numel
  reducesTo_S45x128_S45_d1 : S45x128.ReducesTo [1] S45
  slices_S45_S15_0 : S45.Slices ![0] S15
  slices_S45_S15_15 : S45.Slices ![15] S15
  slices_S45_S15_30 : S45.Slices ![30] S15
  bcast_S_S15 : S_.BroadcastsInDim S15 (![] : Fin 0 → Fin S15.rank)
  reducesTo_S15_S_d0 : S15.ReducesTo [0] S_
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x45x128.size a ≤ S2x45x128.size a
  hwx0_2 : ∀ i : grid0.Coords, EltTy.bits .f32 = 32 ∨ (Rect.block (s := S2x45x128) S1x45x128.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x45x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S67108864 : Shape := ⟨1, ![67108864]⟩
abbrev S_ : Shape := ⟨0, ![]⟩
abbrev S15 : Shape := ⟨1, ![15]⟩
abbrev S67108864x1 : Shape := ⟨2, ![67108864, 1]⟩
abbrev S1 : Shape := ⟨1, ![1]⟩

abbrev nBuf : Space → Nat
  | .hbm => 62
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S67108864, .f32⟩
  | .hbm, ⟨2, _⟩ => ⟨S67108864, .f32⟩
  | .hbm, ⟨3, _⟩ => ⟨S67108864, .f32⟩
  | .hbm, ⟨4, _⟩ => ⟨S_, .f32⟩
  | .hbm, ⟨5, _⟩ => ⟨S67108864, .f32⟩
  | .hbm, ⟨6, _⟩ => ⟨S67108864, .f32⟩
  | .hbm, ⟨7, _⟩ => ⟨S_, .f32⟩
  | .hbm, ⟨8, _⟩ => ⟨S67108864, .f32⟩
  | .hbm, ⟨9, _⟩ => ⟨S67108864, .f32⟩
  | .hbm, ⟨10, _⟩ => ⟨S_, .f32⟩
  | .hbm, ⟨11, _⟩ => ⟨S67108864, .f32⟩
  | .hbm, ⟨12, _⟩ => ⟨S67108864, .f32⟩
  | .hbm, ⟨13, _⟩ => ⟨S67108864, .f32⟩
  | .hbm, ⟨14, _⟩ => ⟨S67108864, .i32⟩
  | .hbm, ⟨15, _⟩ => ⟨S_, .i32⟩
  | .hbm, ⟨16, _⟩ => ⟨S67108864, .i32⟩
  | .hbm, ⟨17, _⟩ => ⟨S67108864, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S67108864, .i32⟩
  | .hbm, ⟨22, _⟩ => ⟨S67108864, .i32⟩
  | .hbm, ⟨23, _⟩ => ⟨S_, .i32⟩
  | .hbm, ⟨24, _⟩ => ⟨S67108864, .i32⟩
  | .hbm, ⟨25, _⟩ => ⟨S67108864, .i32⟩
  | .hbm, ⟨26, _⟩ => ⟨S_, .f32⟩
  | .hbm, ⟨27, _⟩ => ⟨S67108864, .f32⟩
  | .hbm, ⟨28, _⟩ => ⟨S_, .f32⟩
  | .hbm, ⟨29, _⟩ => ⟨S15, .f32⟩
  | .hbm, ⟨30, _⟩ => ⟨S67108864x1, .i32⟩
  | .hbm, ⟨31, _⟩ => ⟨S15, .f32⟩
  | .hbm, ⟨32, _⟩ => ⟨S_, .f32⟩
  | .hbm, ⟨33, _⟩ => ⟨S15, .f32⟩
  | .hbm, ⟨34, _⟩ => ⟨S67108864x1, .i32⟩
  | .hbm, ⟨35, _⟩ => ⟨S15, .f32⟩
  | .hbm, ⟨36, _⟩ => ⟨S_, .f32⟩
  | .hbm, ⟨37, _⟩ => ⟨S15, .f32⟩
  | .hbm, ⟨38, _⟩ => ⟨S67108864x1, .i32⟩
  | .hbm, ⟨39, _⟩ => ⟨S15, .f32⟩
  | .hbm, ⟨40, _⟩ => ⟨S_, .f32⟩
  | .hbm, ⟨41, _⟩ => ⟨S15, .f32⟩
  | .hbm, ⟨42, _⟩ => ⟨S15, .i1⟩
  | .hbm, ⟨43, _⟩ => ⟨S_, .f32⟩
  | .hbm, ⟨44, _⟩ => ⟨S_, .f32⟩
  | .hbm, ⟨45, _⟩ => ⟨S15, .f32⟩
  | .hbm, ⟨46, _⟩ => ⟨S15, .f32⟩
  | .hbm, ⟨47, _⟩ => ⟨S15, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S_, .f32⟩
  | .hbm, ⟨52, _⟩ => ⟨S15, .f32⟩
  | .hbm, ⟨53, _⟩ => ⟨S15, .f32⟩
  | .hbm, ⟨54, _⟩ => ⟨S15, .f32⟩
  | .hbm, ⟨55, _⟩ => ⟨S_, .f32⟩
  | .hbm, ⟨56, _⟩ => ⟨S_, .f32⟩
  | .hbm, ⟨57, _⟩ => ⟨S15, .f32⟩
  | .hbm, ⟨58, _⟩ => ⟨S15, .f32⟩
  | .hbm, ⟨59, _⟩ => ⟨S_, .f32⟩
  | .hbm, ⟨60, _⟩ => ⟨S_, .f32⟩
  | .hbm, ⟨61, _⟩ => ⟨S1, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_call1_v0 : Ref sig .tc := ⟨.hbm, 44, rfl⟩
abbrev main_call1_v1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_call2_v0 : Ref sig .tc := ⟨.hbm, 56, rfl⟩
abbrev main_call2_v1 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_v35 : Ref sig .tc := ⟨.hbm, 61, rfl⟩

abbrev nD : Nat := 1
abbrev τ : Topo := Topo.v7x

variable {F : FTy → Type} [FloatOps F]

class Facts₀ : Prop where
  bcast_S_S67108864 : S_.BroadcastsInDim S67108864 (![] : Fin 0 → Fin S67108864.rank)
  bcast_S_S15 : S_.BroadcastsInDim S15 (![] : Fin 0 → Fin S15.rank)
  bcast_S67108864_S67108864x1_0 : S67108864.BroadcastsInDim S67108864x1 (![0] : Fin 1 → Fin S67108864x1.rank)
  reducesTo_S15_S_d0 : S15.ReducesTo [0] S_
  h_S_ : 0 < S_.numel
  shapeCasts_S_S1 : S_.ShapeCasts S1
  scatter_S15_S67108864x1_S67108864_n_0_0_1_wf : ScatterDims.WF S15 S67108864x1 S67108864 [] [0] [0] 1

variable [Facts₀]

def scatter_S15_S67108864x1_S67108864_n_0_0_1 : ScatterDims S15 S67108864x1 S67108864 where
  updateWindowDims := []
  insertedWindowDims := [0]
  scatterDimsToOperandDims := [0]
  indexVectorDim := 1
  wf := scatter_S15_S67108864x1_S67108864_n_0_0_1_wf

class Facts : Prop extends Facts₀ where

variable [Facts]
-- ==== Proof.Calib.lean ====
/-
  The calibration histogram both programs compute, stated once over the extended reals.

  A sample is a logit `x` and a label `y`. Its confidence is `conf x = 1 / (1 + e^(-x))`; its bin is
  `binOf x = min 14 (max 0 (⌈15 · conf x⌉ - 1))`, a 32-bit word. Three statistics are kept per bin: how many samples fall
  in it, the sum of their confidences, the sum of their labels (`k = 0, 1, 2`; `upd k` is what one sample adds).

  `refBin` is the direct form: statistic `k` of bin `n` is the sum of `upd k` over the samples whose bin is `n`.

  `kerBin` is the tiled form. The samples are laid out as 128 tiles of 4096 rows by 128 lanes (sample number
  `(p · 4096 + r) · 128 + l`). For a tile and a lane, bins 0 … 13 are summed through the 0/1 indicator of the bin
  (`part`); bin 14 is the tile's whole-lane total (`total`) minus the running sum of the other fourteen (`accum`) — the
  bins partition the samples. A tile's cells are summed over the 64 tiles of a half, then over the two halves, then over
  the lanes.
-/
import Idealize.ShloMosaic.Lib.ValueIdx
import Idealize.ShloMosaic.PureOps.Ideal
import Idealize.ShloMosaic.PureOps.Ideal.Laws

noncomputable section

open scoped BigOperators

namespace Cert.Calib

open Idealize.ShloMosaic

/-- The number of samples: 2 halves × 64 tiles × 4096 rows × 128 lanes. -/
abbrev NS : Nat := 67108864

/-- A sample's confidence: the logistic function of its logit. -/
def conf (x : Ideal .f32) : Ideal .f32 := FloatOps.logistic x

/-- A sample's bin, as the 32-bit word both programs compute: `min 14 (max 0 (⌈15 · conf x⌉ - 1))`. -/
def binOf (x : Ideal .f32) : BitVec 32 :=
  IntOp.minsi 14#32 (IntOp.maxsi 0#32 (IntOp.subi
    (FloatOps.fptosi 32 (FloatOps.ceil (FloatOps.mulf (conf x) (FloatOps.ofBits .f32 0x41700000#32)))) 1#32))

/-- The indicator of bin `b` at a sample, as the float the masked form multiplies by: 1 in the bin, 0 outside it. -/
def ind (b : BitVec 32) (x : Ideal .f32) : Ideal .f32 :=
  FloatOps.sitofp .f32 ((IntOp.cmpi .eq (binOf x) b).setWidth 32)

/-- What one sample adds to statistic `k` of its bin: one, its confidence, its label. -/
def upd (k : Fin 3) (x y : Ideal .f32) : Ideal .f32 :=
  match k with
  | 0 => FloatOps.ofBits .f32 0x3F800000#32
  | 1 => conf x
  | 2 => y

/-- What one sample adds to statistic `k` of bin `b` in the masked form: the indicator, times the confidence, times
    the label. -/
def wt (k : Fin 3) (b : BitVec 32) (x y : Ideal .f32) : Ideal .f32 :=
  match k with
  | 0 => ind b x
  | 1 => FloatOps.mulf (ind b x) (conf x)
  | 2 => FloatOps.mulf (ind b x) y

/-! ## The direct form -/

/-- Statistic `k` of bin `n`, directly: zero plus the sum of `upd k` over the samples whose bin, read as a signed
    integer, is `n`. -/
def refBin (k : Fin 3) (X Y : Fin NS → Ideal .f32) (n : Fin 15) : Ideal .f32 :=
  (0 : EReal) + ∑ e ∈ Finset.univ.filter (fun e : Fin NS => (binOf (X e)).toInt = (n.val : ℤ)), upd k (X e) (Y e)

/-! ## The tiled form -/

/-- A sequence of samples read at any natural number (zero past the end: never used). -/
def ext (X : Fin NS → Ideal .f32) (j : Nat) : Ideal .f32 := if h : j < NS then X ⟨j, h⟩ else (0 : EReal)

/-- The sample number of row `r`, lane `l` of tile `p`. -/
def sampleAt (p : Nat) (r : Fin 4096) (l : Fin 128) : Nat := (p * 4096 + r.val) * 128 + l.val

/-- Tile `p`, lane `l`: the masked sum of statistic `k` for bin `b` over the tile's 4096 rows. -/
def part (k : Fin 3) (b : BitVec 32) (X Y : Fin NS → Ideal .f32) (p : Nat) (l : Fin 128) : Ideal .f32 :=
  ∑ r : Fin 4096, wt k b (ext X (sampleAt p r l)) (ext Y (sampleAt p r l))

/-- Tile `p`, lane `l`: the whole-lane total of statistic `k` — the row count 4096, the sum of the confidences, the
    sum of the labels. -/
def total (k : Fin 3) (X Y : Fin NS → Ideal .f32) (p : Nat) (l : Fin 128) : Ideal .f32 :=
  match k with
  | 0 => FloatOps.ofBits .f32 0x45800000#32
  | 1 => ∑ r : Fin 4096, conf (ext X (sampleAt p r l))
  | 2 => ∑ r : Fin 4096, ext Y (sampleAt p r l)

/-- Tile `p`, lane `l`: the running sum of bins 0 … 13 of statistic `k`, from zero, in bin order. -/
def accum (k : Fin 3) (X Y : Fin NS → Ideal .f32) (p : Nat) (l : Fin 128) : Ideal .f32 :=
  (List.range 14).foldl (fun a b => a + part k (BitVec.ofNat 32 b) X Y p l) (0 : EReal)

/-- Tile `p`, lane `l`, bin `n` of statistic `k`: the masked sum for bins 0 … 13, total minus the others for bin 14. -/
def cell (k : Fin 3) (n : Fin 15) (X Y : Fin NS → Ideal .f32) (p : Nat) (l : Fin 128) : Ideal .f32 :=
  if n.val < 14 then part k (BitVec.ofNat 32 n.val) X Y p l else total k X Y p l - accum k X Y p l

/-- Statistic `k` of bin `n`, tiled: the cells summed over the 64 tiles of each half (from zero), over the two halves
    (from zero), over the 128 lanes (from zero). -/
def kerBin (k : Fin 3) (X Y : Fin NS → Ideal .f32) (n : Fin 15) : Ideal .f32 :=
  (0 : EReal) + ∑ l : Fin 128, ((0 : EReal) + ∑ g : Fin 2,
    ((0 : EReal) + ∑ s ∈ Finset.range 64, cell k n X Y (64 * g.val + s) l))

/-! ## The expected calibration error from the three statistics -/

/-- A bin's divisor: its count when the bin is non-empty, one otherwise. -/
def safe (c : Ideal .f32) : Ideal .f32 :=
  Scalar.select (FloatOps.cmpf .ogt c (FloatOps.ofBits .f32 0x00000000#32)) c (FloatOps.ofBits .f32 0x3F800000#32)

/-- A bin's term: `|sum of confidences / count - sum of labels / count| · (count / 2^26)` when the bin is non-empty,
    zero otherwise. -/
def term (c s a : Ideal .f32) : Ideal .f32 :=
  Scalar.select (FloatOps.cmpf .ogt c (FloatOps.ofBits .f32 0x00000000#32))
    (FloatOps.mulf
      (FloatOps.hostAbsf (FloatOps.subf (FloatOps.hostDivf s (safe c)) (FloatOps.hostDivf a (safe c))))
      (FloatOps.hostDivf c (FloatOps.ofBits .f32 0x4C800000#32)))
    (FloatOps.ofBits .f32 0x00000000#32)

/-- The result from the statistics `B k n` (statistic `k` of bin `n`): zero plus the sum of the fifteen bins' terms. -/
def ece (B : Fin 3 → Fin 15 → Ideal .f32) : Ideal .f32 :=
  FloatOps.ofBits .f32 0x00000000#32 + ∑ n : Fin 15, term (B 0 n) (B 1 n) (B 2 n)

end Cert.Calib

end
-- ==== Proof.LibRowGatherScatter.lean ====
import Idealize.ShloMosaic.Lib.ValueIdx
import Idealize.ShloMosaic.PureOps.Ideal
import Idealize.ShloMosaic.PureOps.Ideal.Laws

noncomputable section

open scoped BigOperators

namespace Cert.RowOps

open Idealize.ShloMosaic Idealize.ShloMosaic.ValueIdx

/-! ## Membership facts about the two axes of a matrix -/

/-- Axis 1 is not the axis 0. -/
theorem one_not_mem_zero : (1 : Fin 2) ∉ [(0 : Fin 2)] := by decide
/-- Axis 1 is among the axes other than axis 0. -/
theorem one_mem_kept : (1 : Fin 2) ∈ (List.finRange 2).filter (fun a => a ∉ [(0 : Fin 2)]) := by decide
/-- Axis 0 is not among the axes other than axis 0. -/
theorem zero_not_mem_kept : (0 : Fin 2) ∉ (List.finRange 2).filter (fun a => a ∉ [(0 : Fin 2)]) := by decide
/-- A vector's one axis is not among the axes other than it. -/
theorem zero_not_mem_kept1 : (0 : Fin 1) ∉ (List.finRange 1).filter (fun a => a ∉ [(0 : Fin 1)]) := by decide

/-! ## Gathering rows of a matrix, and entries of a vector, at a column of start indices -/

section Gather
variable {α : Type}

/-- The dimension numbers of a gather of ROWS: operand `[N, C]`, start indices `[R, 1]` (one row number per result
    row), result `[R, C]`; axis 0 of the operand is collapsed and indexed, axis 1 is the offset axis with the full
    slice `C`. Their conditions `wf` are decided on literal sizes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand's entry in column `k` of the row whose number is the start index
    `idx[e, 0]`, read signed and clamped into `[0, N − 1]`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hs : (rowGatherDims N R C wf).start (ix2 e k) idx 1 = 0 := by
      unfold GatherDims.start
      rw [dif_neg one_not_mem_zero]
    rw [hs]
    have hk : (1 : Fin 2) ∈ (rowGatherDims N R C wf).sKept :=
      (GatherDims.mem_sKept _ _).mpr ⟨one_not_mem_zero, List.not_mem_nil⟩
    unfold GatherDims.offCoord
    rw [dif_pos hk]
    simp only [Nat.zero_add]
    rfl

/-- The dimension numbers of a gather of ENTRIES of a vector: operand `[N]`, start indices `[R, 1]`, result `[R]`;
    the operand's one axis is collapsed and indexed, and there is no offset axis. Their conditions `wf` are decided
    on literal sizes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand's entry whose number is the start index `idx[e, 0]`, read signed and
    clamped into `[0, N − 1]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Scatter-adding rows into a matrix, and entries into a vector, at a column of scatter indices -/

section Scatter

/-- An update index lands at operand index `i` exactly when on every operand axis the start (read signed, not
    clamped) plus the window coordinate is `i`'s coordinate: being inside the operand is then automatic. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have h1 := h a
      rw [← hi]
      show _ = (((d.start j idx a + (d.window j a : ℤ)).toNat : ℕ) : ℤ)
      omega
    · intro hi
      funext a
      refine Fin.ext ?_
      have h1 := hi a
      have h2 := h a
      show (d.start j idx a + (d.window j a : ℤ)).toNat = (i a).val
      omega
  · rename_i h
    constructor
    · intro hh
      cases hh
    · intro hi
      exfalso
      apply h
      intro a
      have h1 := hi a
      have h2 := (i a).isLt
      omega

/-- The dimension numbers of a scatter of ROWS: operand `[N, C]`, scatter indices `[R, 1]` (one row number per
    update row), updates `[R, C]`; axis 0 of the operand is the inserted, indexed one, axis 1 the window axis. Their
    conditions `wf` are decided on literal sizes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the indexed axis the start of update `(e, k)` is the scatter index `idx[e, 0]` read signed. -/
theorem rowScatter_start0 {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k)
      ⟨List.idxOf (0 : Fin 2) (rowScatterDims N R C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window axis the start is `0`. -/
theorem rowScatter_start1 {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N R C wf).start j idx 1 = 0 := by
  unfold ScatterDims.start
  rw [dif_neg one_not_mem_zero]

/-- On the indexed axis the window coordinate is `0`. -/
theorem rowScatter_window0 {N R C : Nat} (wf : ScatterDims.WF ⟨2, ![N, C]⟩ ⟨2, ![R, 1]⟩ ⟨2, ![R, C]⟩ [1] [0] [0] 1)
    (j : (⟨2, ![R, C]⟩ : Shape).Idx) :
    (rowScatterDims N R C wf).window j 0 = 0 := by
  unfold ScatterDims.window
  rw [dif_neg (show (0 : Fin 2) ∉ (rowScatterDims N R C wf).sKept from zero_not_mem_kept)]

/-- On the window axis the window coordinate of update `(e, k)` is `k`. -/
theorem rowScatter_window1 {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from one_mem_kept)]
  rfl

/-- WHERE A ROW UPDATE LANDS: update `(e, k)` lands at `(n, k')` exactly when the scatter index `idx[e, 0]`, read
    signed, is `n` and the columns agree. -/
theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (n : Fin N) (k' : Fin C) :
    (rowScatterDims N R C wf).resultIdx? (ix2 e k) idx = some (ix2 n k')
      ↔ ((idx (ix2 e (0 : Fin 1))).toInt = (n.val : ℤ) ∧ k = k') := by
  rw [resultIdx?_eq_some_iff]
  constructor
  · intro h
    have h0 := h 0
    have h1 := h 1
    rw [rowScatter_start0, rowScatter_window0] at h0
    rw [rowScatter_start1, rowScatter_window1] at h1
    refine ⟨?_, Fin.ext ?_⟩
    · have : ((ix2 n k' : (⟨2, ![N, C]⟩ : Shape).Idx) 0).val = n.val := rfl
      omega
    · have : ((ix2 n k' : (⟨2, ![N, C]⟩ : Shape).Idx) 1).val = k'.val := rfl
      omega
  · rintro ⟨h0, rfl⟩ a
    match a with
    | ⟨0, _⟩ =>
      show (rowScatterDims N R C wf).start (ix2 e k) idx 0 + ((rowScatterDims N R C wf).window (ix2 e k) 0 : ℤ) = (n.val : ℤ)
      rw [rowScatter_start0, rowScatter_window0, h0]; simp
    | ⟨1, _⟩ =>
      show (rowScatterDims N R C wf).start (ix2 e k) idx 1 + ((rowScatterDims N R C wf).window (ix2 e k) 1 : ℤ) = (k.val : ℤ)
      rw [rowScatter_start1, rowScatter_window1]; simp

/-- THE ROW SCATTER-ADD READ AT `(n, k)`: the operand's entry plus the sum, over the update rows `e` whose scatter
    index `idx[e, 0]` read signed is `n`, of the update's entry `(e, k)`; a row whose index is outside `[0, N)`
    contributes nowhere. -/
theorem rowScatterAdd_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (k : Fin C) :
    Ideal.hostScatterAdd (rowScatterDims N R C wf) x idx upd (ix2 n k)
      = x (ix2 n k) + ∑ e ∈ Finset.univ.filter (fun e : Fin R => (idx (ix2 e (0 : Fin 1))).toInt = (n.val : ℤ)),
          upd (ix2 e k) := by
  unfold Ideal.hostScatterAdd
  congr 1
  symm
  refine Finset.sum_bij (fun e _ => ix2 e k) ?_ ?_ ?_ ?_
  · intro e he
    rw [Finset.mem_filter] at he ⊢
    exact ⟨Finset.mem_univ _, (rowScatter_resultIdx wf idx e k n k).mpr ⟨he.2, rfl⟩⟩
  · intro e1 _ e2 _ h
    exact congrFun h 0
  · intro j hj
    rw [Finset.mem_filter] at hj
    rw [eq_ix2 j] at hj ⊢
    obtain ⟨h1, h2⟩ := (rowScatter_resultIdx wf idx (j 0) (j 1) n k).mp hj.2
    refine ⟨j 0, Finset.mem_filter.mpr ⟨Finset.mem_univ _, h1⟩, ?_⟩
    subst h2
    rfl
  · intro e _
    rfl

/-- The dimension numbers of a scatter of ENTRIES into a vector: operand `[N]`, scatter indices `[R, 1]`, updates
    `[R]`; the operand's one axis is the inserted, indexed one and there is no window axis. Their conditions `wf` are
    decided on literal sizes. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The start of update `e` on the operand's one axis is the scatter index `idx[e, 0]` read signed. -/
theorem vecScatter_start {N R w : Nat} (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx 0 = (idx (ix2 e (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window axis: the window coordinate on the operand's one axis is `0`. -/
theorem vecScatter_window {N R : Nat} (wf : ScatterDims.WF ⟨1, ![N]⟩ ⟨2, ![R, 1]⟩ ⟨1, ![R]⟩ [] [0] [0] 1)
    (j : (⟨1, ![R]⟩ : Shape).Idx) :
    (vecScatterDims N R wf).window j 0 = 0 := by
  unfold ScatterDims.window
  rw [dif_neg (show (0 : Fin 1) ∉ (vecScatterDims N R wf).sKept from zero_not_mem_kept1)]

/-- WHERE AN ENTRY UPDATE LANDS: update `e` lands at `n` exactly when the scatter index `idx[e, 0]`, read signed,
    is `n`. -/
theorem vecScatter_resultIdx {N R w : Nat} (wf : ScatterDims.WF ⟨1, ![N]⟩ ⟨2, ![R, 1]⟩ ⟨1, ![R]⟩ [] [0] [0] 1)
    (idx : IVec ⟨2, ![R, 1]⟩ w) (e : Fin R) (n : Fin N) :
    (vecScatterDims N R wf).resultIdx? (ix1 e) idx = some (ix1 n)
      ↔ (idx (ix2 e (0 : Fin 1))).toInt = (n.val : ℤ) := by
  rw [resultIdx?_eq_some_iff]
  constructor
  · intro h
    have h0 := h 0
    rw [vecScatter_start, vecScatter_window] at h0
    have : ((ix1 n : (⟨1, ![N]⟩ : Shape).Idx) 0).val = n.val := rfl
    omega
  · intro h0 a
    obtain rfl : a = 0 := Subsingleton.elim _ _
    show (vecScatterDims N R wf).start (ix1 e) idx 0 + ((vecScatterDims N R wf).window (ix1 e) 0 : ℤ) = (n.val : ℤ)
    rw [vecScatter_start, vecScatter_window, h0]; simp

/-- THE VECTOR SCATTER-ADD READ AT `n`: the operand's entry plus the sum, over the updates `e` whose scatter index
    `idx[e, 0]` read signed is `n`, of the update `e`; an update whose index is outside `[0, N)` contributes
    nowhere. -/
theorem vecScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatterDims N R wf) x idx upd (ix1 n)
      = x (ix1 n) + ∑ e ∈ Finset.univ.filter (fun e : Fin R => (idx (ix2 e (0 : Fin 1))).toInt = (n.val : ℤ)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vecScatter_resultIdx wf idx e n).mpr he.2⟩
  · intro e1 _ e2 _ h
    exact congrFun h 0
  · intro j hj
    rw [Finset.mem_filter] at hj
    rw [eq_ix1 j] at hj ⊢
    exact ⟨j 0, Finset.mem_filter.mpr ⟨Finset.mem_univ _, (vecScatter_resultIdx wf idx (j 0) n).mp hj.2⟩, rfl⟩
  · intro e _
    rfl

end Scatter

end Cert.RowOps

end
-- ==== Proof.RefBins.lean ====
/-
  The reference program read as the calibration error of three direct-form statistics.

  The program computes, for each sample, its confidence `1 / (1 + e^(-x))` (the logistic function of the logit, spelled
  out as a quotient) and its bin word `min 14 (max 0 (⌈15 · confidence⌉ - 1))`. Three scatter-adds from zero then
  accumulate, into fifteen bins, a one, the confidence and the label of every sample, each at the sample's bin: read at
  bin `n`, a scatter-add is the operand's entry plus the sum of the updates whose index word, read signed, is `n`, so
  the three results are the direct-form statistics `refBin 0`, `refBin 1`, `refBin 2` of the two argument arrays. The
  epilogue forms each bin's term from the three statistics at that bin (entry by entry the same expression as
  `Calib.term`), sums the fifteen terms from zero, and reshapes the scalar to a one-entry vector: the calibration error
  `Calib.ece` of the statistics.
-/
import proofs.«109002_j88493506167218_2_alg».proof.Proof.RefReadP
import proofs.«109002_j88493506167218_2_alg».proof.Proof.Calib
import proofs.«109002_j88493506167218_2_alg».proof.Proof.LibRowGatherScatter
import proofs.«109002_j88493506167218_2_alg».proof.Proof.Gen.ReferenceIdeal
import Idealize.ShloMosaic.Lib.IdealHost

noncomputable section

open scoped BigOperators

namespace Cert.ReferenceIdeal.Bins

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The confidence stage at a sample: the spelled-out quotient `1 / (1 + e^(-x))` is the logistic function. -/
theorem conf_apply (x0 : (⟨S67108864, .f32⟩ : BufTy).Contents (Elt Ideal)) (i : S67108864.Idx) :
    val_main_v5 (F := Ideal) x0 i = Cert.Calib.conf (x0 i) := by
  rw [val_main_v5_apply, val_main_v4_apply, val_main_cst_0_apply, val_main_v3_apply, val_main_v2_apply,
    val_main_cst_apply, val_main_v1_apply, val_main_v0_apply]
  unfold Cert.Calib.conf
  simp only [Ideal.ofBits_def, Ideal.ofBits_one_f32]
  rfl

/-- The bin stage at a sample is the bin word of its logit. -/
theorem bin_apply (x0 : (⟨S67108864, .f32⟩ : BufTy).Contents (Elt Ideal)) (i : S67108864.Idx) :
    val_main_v12 (F := Ideal) x0 i = Cert.Calib.binOf (x0 i) := by
  rw [val_main_v12_apply, val_main_call0_v4_apply, val_main_call0_v3_apply, val_main_c_3_apply,
    val_main_call0_v2_apply, val_main_call0_v1_apply, val_main_call0_v0_apply, val_main_c_2_apply,
    val_main_v11_apply, val_main_v9_apply, val_main_v8_apply, val_main_v7_apply, conf_apply,
    val_main_v6_apply, val_main_cst_1_apply, val_main_v10_apply, val_main_c_apply]
  rfl

/-- The program's scatter dimension numbers are those of a scatter of entries into a vector. -/
theorem scatter_eq : scatter_S15_S67108864x1_S67108864_n_0_0_1
    = Cert.RowOps.vecScatterDims 15 67108864 Facts₀.scatter_S15_S67108864x1_S67108864_n_0_0_1_wf := rfl

/-- The index column built from the bin words reads, at row `e`, the bin word of sample `e`. -/
theorem col_index (e : Fin 67108864) : idx_main_v15 (ix2 e (0 : Fin 1)) = ix1 e :=
  funext fun a => match a with | ⟨0, _⟩ => rfl

/-- A vector's index set is its one coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- A scatter-add of the program's shape read at bin `n`: the operand's entry plus the sum of the updates whose index
    word, read signed, is `n`. -/
theorem scatterAdd_apply (z : FVec Ideal S15 .f32) (idx : IVec S67108864x1 32) (u : FVec Ideal S67108864 .f32)
    (n : Fin 15) :
    Host.scatterAdd (F := Ideal) (φ := .f32) scatter_S15_S67108864x1_S67108864_n_0_0_1 z idx u (ix1 n)
      = z (ix1 n) + ∑ e ∈ Finset.univ.filter (fun e : Fin 67108864 => (idx (ix2 e (0 : Fin 1))).toInt = (n.val : ℤ)),
          u (ix1 e) := by
  rw [scatter_eq]
  exact Cert.RowOps.vecScatterAdd_apply _ z idx u n

/-- One statistic: a scatter-add from zero, indexed by the bin words of the logits `X`, of updates that are what
    each sample adds to statistic `k`, is the direct form of that statistic. -/
theorem stat_apply (k : Fin 3) (X Y : Fin Cert.Calib.NS → Ideal .f32)
    (z : FVec Ideal S15 .f32) (idx : IVec S67108864x1 32) (u : FVec Ideal S67108864 .f32) (n : Fin 15)
    (hz : z (ix1 n) = FloatOps.ofBits (F := Ideal) .f32 0x00000000#32)
    (hidx : ∀ e : Fin 67108864, idx (ix2 e (0 : Fin 1)) = Cert.Calib.binOf (X e))
    (hu : ∀ e : Fin 67108864, u (ix1 e) = Cert.Calib.upd k (X e) (Y e)) :
    Host.scatterAdd (F := Ideal) (φ := .f32) scatter_S15_S67108864x1_S67108864_n_0_0_1 z idx u (ix1 n)
      = Cert.Calib.refBin k X Y n := by
  rw [scatterAdd_apply, hz, Ideal.ofBits_def, Ideal.ofBits_zero_f32]
  unfold Cert.Calib.refBin
  refine congrArg ((0 : EReal) + ·) ?_
  exact Finset.sum_congr (Finset.filter_congr fun e _ => by rw [hidx e]) fun e _ => hu e

section Stats
variable (x0 x1 : (⟨S67108864, .f32⟩ : BufTy).Contents (Elt Ideal)) (n : Fin 15)

/-- The index column of each scatter reads, at row `e`, the bin word of the logit of sample `e`. -/
theorem col15_apply (e : Fin 67108864) :
    val_main_v15 (F := Ideal) x0 (ix2 e (0 : Fin 1)) = Cert.Calib.binOf (x0 (ix1 e)) := by
  rw [val_main_v15_apply, col_index, bin_apply]
theorem col18_apply (e : Fin 67108864) :
    val_main_v18 (F := Ideal) x0 (ix2 e (0 : Fin 1)) = Cert.Calib.binOf (x0 (ix1 e)) := by
  rw [val_main_v18_apply]; exact (congrArg _ (col_index e)).trans (bin_apply x0 _)
theorem col21_apply (e : Fin 67108864) :
    val_main_v21 (F := Ideal) x0 (ix2 e (0 : Fin 1)) = Cert.Calib.binOf (x0 (ix1 e)) := by
  rw [val_main_v21_apply]; exact (congrArg _ (col_index e)).trans (bin_apply x0 _)

/-- The first scatter is the bins' counts. -/
theorem count_apply :
    val_main_v16 (F := Ideal) x0 (ix1 n)
      = Cert.Calib.refBin 0 (fun e => x0 (ix1 e)) (fun e => x1 (ix1 e)) n := by
  unfold val_main_v16
  refine stat_apply 0 _ _ _ _ _ n ?_ (col15_apply x0) fun e => ?_
  · rw [val_main_v14_apply, val_main_cst_5_apply]
  · rw [val_main_v13_apply, val_main_cst_4_apply]; rfl

/-- The second scatter is the bins' sums of confidences. -/
theorem confSum_apply :
    val_main_v19 (F := Ideal) x0 (ix1 n)
      = Cert.Calib.refBin 1 (fun e => x0 (ix1 e)) (fun e => x1 (ix1 e)) n := by
  unfold val_main_v19
  refine stat_apply 1 _ _ _ _ _ n ?_ (col18_apply x0) fun e => ?_
  · rw [val_main_v17_apply, val_main_cst_6_apply]
  · rw [conf_apply]; rfl

/-- The third scatter is the bins' sums of labels. -/
theorem labelSum_apply :
    val_main_v22 (F := Ideal) x0 x1 (ix1 n)
      = Cert.Calib.refBin 2 (fun e => x0 (ix1 e)) (fun e => x1 (ix1 e)) n := by
  unfold val_main_v22
  refine stat_apply 2 _ _ _ _ _ n ?_ (col21_apply x0) fun e => rfl
  rw [val_main_v20_apply, val_main_cst_7_apply]

/-- The epilogue at bin `n` is the bin's term of the calibration error, of the three statistics at `n`. -/
theorem term_apply :
    val_main_v33 (F := Ideal) x0 x1 (ix1 n)
      = Cert.Calib.term (val_main_v16 (F := Ideal) x0 (ix1 n)) (val_main_v19 (F := Ideal) x0 (ix1 n))
          (val_main_v22 (F := Ideal) x0 x1 (ix1 n)) := by
  rw [val_main_v33_apply, val_main_v32_apply, val_main_v31_apply, val_main_v30_apply, val_main_cst_10_apply,
    val_main_v29_apply, val_main_v28_apply, val_main_v27_apply, val_main_v26_apply, val_main_v25_apply,
    val_main_v24_apply, val_main_v23_apply, val_main_cst_8_apply, val_main_call1_v1_apply, val_main_call1_v0_apply,
    val_main_cst_9_apply, val_main_call2_v1_apply, val_main_call2_v0_apply, val_main_cst_11_apply]
  unfold Cert.Calib.term Cert.Calib.safe
  with_reducible rfl

end Stats

/-- The last stage at its one index: zero plus the sum over the fifteen bins of each bin's term, which is the
    calibration error of the three direct-form statistics of the two argument arrays. The closing reshape of the scalar
    to a one-entry vector reads the scalar's one entry. -/
theorem value_eq (x0 x1 : (⟨S67108864, .f32⟩ : BufTy).Contents (Elt Ideal)) (i : S1.Idx) :
    val_main_v35 (F := Ideal) x0 x1 i
      = Cert.Calib.ece (fun k n => Cert.Calib.refBin k (fun e => x0 (ix1 e)) (fun e => x1 (ix1 e)) n) := by
  unfold val_main_v35 shapeCast
  rw [val_main_v34_apply, val_main_cst_12_apply, sum_idx1]
  unfold Cert.Calib.ece
  refine congrArg (FloatOps.ofBits (F := Ideal) .f32 0x00000000#32 + ·) (Finset.sum_congr rfl fun n _ => ?_)
  rw [term_apply, count_apply x0 x1, confSum_apply x0 x1, labelSum_apply]

/-- THE REFERENCE'S RESULT: its one entry is the calibration error of the three direct-form statistics of its two
    argument arrays. -/
theorem result_eq (m : (ℓ : Loc nD τ sig) → Buf (Elt Ideal) ℓ) (c : Dev nD) (i : S1.Idx) :
    Cert.ReferenceIdeal.ValueP.res_main_v35 (F := Ideal) m c i
      = Cert.Calib.ece (fun k n => Cert.Calib.refBin k
          (fun e => m ((c.tc : Thread nD τ).loc main_arg0) (ix1 e))
          (fun e => m ((c.tc : Thread nD τ).loc main_arg1) (ix1 e)) n) := by
  rw [val_main_v35_eq]
  exact value_eq _ _ i

end Cert.ReferenceIdeal.Bins

end
-- ==== Proof.FiniteInputs.lean ====
/-
  From the precondition to finiteness.

  The precondition is one bit: the conjunction, over every entry of each of the two argument arrays, of the comparison
  "the entry's absolute value is below the positive infinity". When that bit is one, both conjunctions are one, so the
  comparison holds at every entry; an extended real whose absolute value is below the top is neither infinity, hence a
  real.
-/
import proofs.«109002_j88493506167218_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Cert.Pre_finite_inputs Cert.Pre_finite_inputs.Gen

/-- A rank-0 array has one index. -/
instance : Subsingleton S_.Idx := ⟨fun a b => funext fun d => d.elim0⟩

/-- The bit pattern of the positive infinity is the top of the extended reals. -/
theorem ofBits_inf_f32 : Ideal.ofBits .f32 0x7F800000#32 = ⊤ := by simp [Ideal.ofBits, Ideal.ieee]

/-- An extended real whose absolute value compares below the positive infinity is a real: it is neither of the two
    infinities, whose absolute value is the top. -/
theorem real_of_abs_lt_inf (x : Ideal .f32)
    (h : FloatOps.cmpf (F := Ideal) .olt (FloatOps.hostAbsf x) (FloatOps.ofBits (F := Ideal) .f32 0x7F800000#32) = 1#1) :
    ∃ r : ℝ, x = ((r : ℝ) : EReal) := by
  change BitVec.ofBool (decide (max x (-x) < Ideal.ofBits .f32 0x7F800000#32)) = 1#1 at h
  rw [ofBits_inf_f32] at h
  have hlt : max x (-x) < (⊤ : EReal) := by
    by_contra hn
    rw [decide_eq_false hn] at h
    exact absurd h (by decide)
  induction x using EReal.rec with
  | bot => exact absurd hlt (by simp)
  | coe r => exact ⟨r, rfl⟩
  | top => exact absurd hlt (by simp)

/-- FROM THE PRECONDITION TO FINITENESS: when the precondition's word is one, every entry of both arrays is a real.
    The word is the conjunction of two conjunctions over all entries ("every entry's absolute value is below the
    positive infinity"), one per array; each conjunction being one gives the comparison at every entry. -/
theorem finite_of_pre (A B : FVec Ideal S67108864 .f32)
    (h : Cert.Pre_finite_inputs.fn (F := Ideal) A B = fun _ => 1#1) :
    (∀ i, ∃ r : ℝ, A i = ((r : ℝ) : EReal)) ∧ (∀ i, ∃ r : ℝ, B i = ((r : ℝ) : EReal)) := by
  have h0 := congrFun h ValueIdx.ix0
  dsimp only [Cert.Pre_finite_inputs.fn] at h0
  obtain ⟨hA, hB⟩ := IntOp.andi_eq_one.1 h0
  exact ⟨fun i => real_of_abs_lt_inf (A i) (Host.reduce_andi_all _ _ _ _ _ hA i),
    fun i => real_of_abs_lt_inf (B i) (Host.reduce_andi_all _ _ _ _ _ hB i)⟩

end Cert.Pre_finite_inputs.Finite

end
-- ==== Proof.KerTile.lean ====
/-
  One tile's contribution, in the body's own operations.

  A tile is a block of 4096 rows by 128 lanes of logits (`x0`) and of labels (`x1`). The body computes, lane by lane
  (sums run down the 4096 rows): the confidences `vConf x0`, the bin words `vIdx x0`, the 0/1 mask of a bin `vMsk b x0`,
  and for each of three statistics (`k = 0, 1, 2`: count, confidences, labels) the masked row sum `vPart k b` of bins
  0 … 13; a running sum of those in bin order (`vAcc k j`: bins below `j`, from zero); the whole-lane total `vTot k`;
  and for bin 14 the total minus the running sum of the fourteen others. Row `15·k + n` of the 45-row output block
  receives statistic `k` of bin `n` (`vRow`), added to what the row held (`vStore`).
-/
import proofs.«109002_j88493506167218_2_alg».proof.Proof.Gen.KernelIdeal.Frame
import Idealize.ShloMosaic.Lib.Pipeline.Value
import Idealize.ShloMosaic.Lib.ValueIdx

set_option maxRecDepth 16384

noncomputable section

namespace Cert.KernelIdeal.Tile

open Idealize.ShloMosaic Idealize.ShloMosaic.TcCoe Idealize.SL.Sem
open Cert.KernelIdeal Cert.KernelIdeal.Gen

variable {F : FTy → Type} [FloatOps F]

/-- The tile's confidences: the logistic function of its logits. -/
def vConf (x0 : Vec F S4096x128 .f32) : FVec F S4096x128 .f32 :=
  logistic (shapeCast S4096x128 x0 shapeCasts_S4096x128_S4096x128)

/-- The tile's labels. -/
def vLab (x1 : Vec F S4096x128 .f32) : FVec F S4096x128 .f32 :=
  shapeCast S4096x128 x1 shapeCasts_S4096x128_S4096x128

/-- The tile's bin words: `min 14 (max 0 (⌈15 · conf⌉ - 1))`. -/
def vIdx (x0 : Vec F S4096x128 .f32) : IVec S4096x128 32 :=
  minsi (broadcast S4096x128 14#32) (maxsi (broadcast S4096x128 0#32)
    (subi (fptosi 32 (ceil (mulf (vConf x0) (broadcast S4096x128 (Scalar.ofBits .f32 0x41700000#32)))))
      (broadcast S4096x128 1#32)))

/-- The 0/1 mask of the entries whose bin word is `b`. -/
def vMskOf (b : BitVec 32) (v17 : IVec S4096x128 32) : FVec F S4096x128 .f32 :=
  sitofp .f32 (extui 32 (cmpi .eq v17 (broadcast S4096x128 b)) natLt_1_32)

/-- The mask of bin `b` of the tile. -/
def vMsk (b : BitVec 32) (x0 : Vec F S4096x128 .f32) : FVec F S4096x128 .f32 := vMskOf b (vIdx x0)

/-- The sum down the rows, lane by lane, as a one-row block. -/
def vSum (v : FVec F S4096x128 .f32) : FVec F S1x128 .f32 :=
  shapeCast S1x128 (multiReduction .add [0] S128 v 0x00000000#32 reduces_S4096x128_S128 (.inl rfl) rfl) shapeCasts_S128_S1x128

/-- Statistic `k` of bin `b` of the tile: the masked row sum of ones, of confidences, of labels. -/
def vPart (k : Nat) (b : BitVec 32) (x0 x1 : Vec F S4096x128 .f32) : FVec F S1x128 .f32 :=
  match k with
  | 0 => vSum (vMsk b x0)
  | 1 => vSum (mulf (vMsk b x0) (vConf x0))
  | _ => vSum (mulf (vMsk b x0) (vLab x1))

/-- The running sum of statistic `k` over the bins below `j`, from zero, in bin order. -/
def vAcc (k : Nat) (x0 x1 : Vec F S4096x128 .f32) : Nat → FVec F S1x128 .f32
  | 0 => broadcast S1x128 (Scalar.ofBits .f32 0x00000000#32)
  | j + 1 => addf (vAcc k x0 x1 j) (vPart k (BitVec.ofNat 32 j) x0 x1)

/-- The whole-lane total of statistic `k`: the row count, the sum of confidences, the sum of labels. -/
def vTot (k : Nat) (x0 x1 : Vec F S4096x128 .f32) : FVec F S1x128 .f32 :=
  match k with
  | 0 => broadcast S1x128 (Scalar.ofBits .f32 0x45800000#32)
  | 1 => vSum (vConf x0)
  | _ => vSum (vLab x1)

/-- What the tile adds to statistic `k` of bin `n`: the masked sum for bins 0 … 13, total minus the others for bin 14. -/
def vRow (k n : Nat) (x0 x1 : Vec F S4096x128 .f32) : FVec F S1x128 .f32 :=
  if n < 14 then vPart k (BitVec.ofNat 32 n) x0 x1 else subf (vTot k x0 x1) (vAcc k x0 x1 14)

/-- A row of the output block after the tile: what it held plus what the tile adds. -/
def vStore (P : FVec F S1x128 .f32) (old : Vec F S1x1x128 .f32) : FVec F S1x1x128 .f32 :=
  addf (shapeCast S1x1x128 old shapeCasts_S1x1x128_S1x1x128) (shapeCast S1x1x128 P shapeCasts_S1x128_S1x1x128)

/-! ## The printed payloads in this vocabulary (each by unfolding) -/

example (x0 : Vec F S4096x128 .f32) : k0_pay4 x0 = vConf x0 := rfl
example (x0 : Vec F S4096x128 .f32) : k0_pay5 x0 = vIdx x0 := rfl
example (x0 : Vec F S4096x128 .f32) : k0_pay12 x0 = vRow 0 0 x0 x0 := rfl
example (x0 x1 : Vec F S4096x128 .f32) : k0_pay14 x0 x1 = vRow 2 0 x0 x1 := rfl
example (x0 x1 : Vec F S4096x128 .f32) (old : Vec F S1x1x128 .f32) : k0_pay15 (k0_pay12 x0) old = vStore (vRow 0 0 x0 x1) old := rfl

end Cert.KernelIdeal.Tile

end
-- ==== Proof.KerBlock.lean ====
/-
  What the body leaves in the 45-row output block after one tile.

  The body stores the block row by row: row `15·k + n` receives what it held plus the tile's statistic `k` of bin `n`
  (`row_store`). Every store is therefore the restriction to its row of ONE function of the block index
  (`blockAfter`), and the rows cover the block, so the block ends as that function (`out_B`) whatever the order of
  the stores.
-/
import proofs.«109002_j88493506167218_2_alg».proof.Proof.KerTile
import Idealize.ShloMosaic.Lib.Tactic

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen

variable {F : FTy → Type} [FloatOps F]

/-- The lane of an index of the 45-row block. -/
def laneOf (y : S1x45x128.Idx) : Fin 128 := ⟨(y 2).val, (y 2).isLt⟩

/-- The output block after a tile: each entry is what it held plus what the tile adds to its row's statistic and bin
    (row `15·k + n` is statistic `k` of bin `n`). -/
def blockAfter (x0 x1 : Vec F S4096x128 .f32) (xo2 : Vec F S1x45x128 .f32) : S1x45x128.Idx → F .f32 :=
  fun y => FloatOps.addf (xo2 y) (vRow ((y 1).val / 15) ((y 1).val % 15) x0 x1 (ix2 (0 : Fin 1) (laneOf y)))

theorem hz2 : (![0, 0] : Fin 2 → Nat) = fun _ => 0 := funext fun a => by fin_cases a <;> rfl

/-- One row store: the row's old contents plus the tile's term for that row, stored through the row's rectangle, is the
    block function restricted to that row. -/
theorem row_store (x0 x1 : Vec F S4096x128 .f32) (xo2 : Vec F S1x45x128 .f32) (ρ : Nat)
    (inb : ∀ a, (![0, ρ, 0] : Fin 3 → Nat) a + S1x1x128.size a ≤ S1x45x128.size a) (x : S1x1x128.Idx) :
    vStore (vRow (ρ / 15) (ρ % 15) x0 x1) (View.ld xo2 (Rect.unit (s := S1x45x128) ![0, ρ, 0] S1x1x128.size inb)) x
      = blockAfter x0 x1 xo2 ((Rect.unit (s := S1x45x128) ![0, ρ, 0] S1x1x128.size inb).emb x) := by
  have h0 : (x 0).val = 0 := by have := (x 0).isLt; simp at this; omega
  have h1 : (x 1).val = 0 := by have := (x 1).isLt; simp at this; omega
  have e1 : (((Rect.unit (s := S1x45x128) ![0, ρ, 0] S1x1x128.size inb).emb x) 1).val = ρ := by
    show ρ + 1 * (x 1).val = ρ
    omega
  unfold vStore blockAfter
  show FloatOps.addf _ _ = FloatOps.addf _ _
  rw [shapeCast_self]
  have e2 : shapeCast S1x1x128 (vRow (ρ / 15) (ρ % 15) x0 x1) shapeCasts_S1x128_S1x1x128 x
      = vRow (ρ / 15) (ρ % 15) x0 x1 (fun a => x a.succ) :=
    shapeCast_addUnit_apply ![1, 128] _ _ x
  rw [e2, e1]
  congr 1
  refine congrArg _ (funext fun a => Fin.ext ?_)
  match a with
  | ⟨0, _⟩ => exact h1
  | ⟨1, _⟩ => show (x 2).val = 0 + 1 * (x 2).val; omega

/-- At a tile that is not the first of its half, the block ends as `blockAfter` of the tile's two input blocks and of
    what the tile before left: all 45 row stores are restrictions of it, and they cover the block. -/
theorem out_B (c : Dev nD) (i : grid0.Coords) (arg2 : Memref sig .tc .vmem S4096x128 .f32) (harg2 : arg2.IsWhole)
    (arg3 : Memref sig .tc .vmem S4096x128 .f32) (harg3 : arg3.IsWhole) (arg4 : Memref sig .tc .vmem S1x45x128 .f32)
    (harg4 : arg4.IsWhole) (hc0 : ¬cond0_0 i) (x0 x1 : Vec F S4096x128 .f32) (xo2 : Vec F S1x45x128 .f32) :
    out0_B_2 c i arg2 harg2 arg3 harg3 arg4 harg4 hc0 x0 x1 xo2 = blockAfter x0 x1 xo2 := by
  unfold out0_B_2
  rw [View.read_writes_eq_canon _ _ _ (cover0_B_2 c i arg2 harg2 arg3 harg3 arg4 harg4 hc0 x0 x1 xo2)]
  funext y
  refine View.canon_apply_of_pieces (blockAfter x0 x1 xo2) _ ?_ y
    (cover0_B_2 c i arg2 harg2 arg3 harg3 arg4 harg4 hc0 x0 x1 xo2 y)
  unfold kernelRun0_B
  dsimp only
  sl_unfold_words
  simp only [View.readAt_eq_ld, harg2.read_unread, harg3.read_unread, harg4.read_unread,
    View.ld_unit_zero (S := S4096x128) hz2]
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => row_store x0 x1 xo2 44 _ x
  · exact fun x => row_store x0 x1 xo2 29 _ x
  · exact fun x => row_store x0 x1 xo2 14 _ x
  · exact fun x => row_store x0 x1 xo2 43 _ x
  · exact fun x => row_store x0 x1 xo2 28 _ x
  · exact fun x => row_store x0 x1 xo2 13 _ x
  · exact fun x => row_store x0 x1 xo2 42 _ x
  · exact fun x => row_store x0 x1 xo2 27 _ x
  · exact fun x => row_store x0 x1 xo2 12 _ x
  · exact fun x => row_store x0 x1 xo2 41 _ x
  · exact fun x => row_store x0 x1 xo2 26 _ x
  · exact fun x => row_store x0 x1 xo2 11 _ x
  · exact fun x => row_store x0 x1 xo2 40 _ x
  · exact fun x => row_store x0 x1 xo2 25 _ x
  · exact fun x => row_store x0 x1 xo2 10 _ x
  · exact fun x => row_store x0 x1 xo2 39 _ x
  · exact fun x => row_store x0 x1 xo2 24 _ x
  · exact fun x => row_store x0 x1 xo2 9 _ x
  · exact fun x => row_store x0 x1 xo2 38 _ x
  · exact fun x => row_store x0 x1 xo2 23 _ x
  · exact fun x => row_store x0 x1 xo2 8 _ x
  · exact fun x => row_store x0 x1 xo2 37 _ x
  · exact fun x => row_store x0 x1 xo2 22 _ x
  · exact fun x => row_store x0 x1 xo2 7 _ x
  · exact fun x => row_store x0 x1 xo2 36 _ x
  · exact fun x => row_store x0 x1 xo2 21 _ x
  · exact fun x => row_store x0 x1 xo2 6 _ x
  · exact fun x => row_store x0 x1 xo2 35 _ x
  · exact fun x => row_store x0 x1 xo2 20 _ x
  · exact fun x => row_store x0 x1 xo2 5 _ x
  · exact fun x => row_store x0 x1 xo2 34 _ x
  · exact fun x => row_store x0 x1 xo2 19 _ x
  · exact fun x => row_store x0 x1 xo2 4 _ x
  · exact fun x => row_store x0 x1 xo2 33 _ x
  · exact fun x => row_store x0 x1 xo2 18 _ x
  · exact fun x => row_store x0 x1 xo2 3 _ x
  · exact fun x => row_store x0 x1 xo2 32 _ x
  · exact fun x => row_store x0 x1 xo2 17 _ x
  · exact fun x => row_store x0 x1 xo2 2 _ x
  · exact fun x => row_store x0 x1 xo2 31 _ x
  · exact fun x => row_store x0 x1 xo2 16 _ x
  · exact fun x => row_store x0 x1 xo2 1 _ x
  · exact fun x => row_store x0 x1 xo2 30 _ x
  · exact fun x => row_store x0 x1 xo2 15 _ x
  · exact fun x => row_store x0 x1 xo2 0 _ x

end Cert.KernelIdeal.Tile

end
-- ==== Proof.KerBlockA.lean ====
/-
  The first tile of a half: the body zeroes the 45-row block, then stores it row by row as at every other tile, each row
  reading back what the block holds at that moment.

  The stores are followed one at a time. After the zero store the block reads as zero everywhere. If, after some stores,
  the block reads as "zero plus the tile's term" on the rows stored so far and as zero on the others (`stateG`), then a
  store to a row not yet stored — the row's current contents, which are zero, plus the tile's term for that row —
  keeps that form with the row added (`good_step`). After all 45 rows the block is `blockAfter` of the zero block
  (`out_A`).
-/
import proofs.«109002_j88493506167218_2_alg».proof.Proof.KerBlock

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen

variable {F : FTy → Type} [FloatOps F]

theorem hz3 : (![0, 0, 0] : Fin 3 → Nat) = fun _ => 0 := funext fun a => by fin_cases a <;> rfl

/-- The zero block the first tile of a half stores before anything else. -/
abbrev zeroBlock : Vec F S1x45x128 .f32 := k0_pay2

/-- The block while the first tile's rows are being stored: `blockAfter` of the zero block on the rows in `S` (those
    stored so far), zero on the others. -/
def stateG (x0 x1 : Vec F S4096x128 .f32) (S : List Nat) : S1x45x128.Idx → F .f32 :=
  fun y => if (y 1).val ∈ S then blockAfter x0 x1 zeroBlock y else zeroBlock y

/-- The stores so far read as `stateG` of the rows `S`, and cover the block. -/
def Good (x0 x1 : Vec F S4096x128 .f32) (H : List (View.Piece (Elt F) S1x45x128 .f32)) (S : List Nat) : Prop :=
  View.canon H = stateG x0 x1 S ∧ ∀ y : S1x45x128.Idx, ∃ p ∈ H, y ∈ p.1.set

/-- After the zero store alone: zero everywhere, no row stored. -/
theorem good_base (x0 x1 : Vec F S4096x128 .f32)
    (inb : ∀ a, (![0, 0, 0] : Fin 3 → Nat) a + S1x45x128.size a ≤ S1x45x128.size a) :
    Good x0 x1 [(⟨Rect.unit (s := S1x45x128) ![0, 0, 0] S1x45x128.size inb, k0_pay2⟩ : View.Piece (Elt F) S1x45x128 .f32)] [] := by
  refine ⟨?_, fun y => ⟨_, List.mem_singleton_self _, View.mem_set_unit_zero hz3 inb y⟩⟩
  rw [View.canon_unit_zero hz3]
  funext y
  simp [stateG]

/-- An index outside row `ρ`'s rectangle is in another row. -/
theorem row_ne_of_not_mem (ρ : Nat) (inb : ∀ a, (![0, ρ, 0] : Fin 3 → Nat) a + S1x1x128.size a ≤ S1x45x128.size a)
    (y : S1x45x128.Idx) (h : y ∉ (Rect.unit (s := S1x45x128) ![0, ρ, 0] S1x1x128.size inb).set) : (y 1).val ≠ ρ := by
  intro e
  apply h
  rw [Rect.mem_set_unit]
  intro a
  match a with
  | ⟨0, _⟩ => have := (y 0).isLt; simp at this; constructor <;> simp <;> omega
  | ⟨1, _⟩ => constructor <;> simp <;> omega
  | ⟨2, _⟩ => have := (y 2).isLt; simp at this; constructor <;> simp <;> omega

/-- `blockAfter` reads the old block only at the index it is read at. -/
theorem blockAfter_congr (x0 x1 : Vec F S4096x128 .f32) (A B : Vec F S1x45x128 .f32) (y : S1x45x128.Idx) (h : A y = B y) :
    blockAfter x0 x1 A y = blockAfter x0 x1 B y := by
  unfold blockAfter
  rw [h]

/-- One more row, the stored value abstract: a store to a row not yet stored whose value is, entry by entry, the block's
    current contents plus the tile's term. -/
theorem good_step' (x0 x1 : Vec F S4096x128 .f32) (H : List (View.Piece (Elt F) S1x45x128 .f32)) (S : List Nat) (ρ : Nat)
    (hρ : ρ ∉ S) (inb : ∀ a, (![0, ρ, 0] : Fin 3 → Nat) a + S1x1x128.size a ≤ S1x45x128.size a)
    (w : (Rect.unit (s := S1x45x128) ![0, ρ, 0] S1x1x128.size inb).shape.Idx → Elt F .f32)
    (hw : ∀ x, w x = blockAfter x0 x1 (View.canon H) ((Rect.unit (s := S1x45x128) ![0, ρ, 0] S1x1x128.size inb).emb x))
    (h : Good x0 x1 H S) :
    Good x0 x1 ((⟨Rect.unit (s := S1x45x128) ![0, ρ, 0] S1x1x128.size inb, w⟩ : View.Piece (Elt F) S1x45x128 .f32) :: H)
      (ρ :: S) := by
  obtain ⟨hc, hcov⟩ := h
  refine ⟨?_, fun y => by obtain ⟨p, hp, hy⟩ := hcov y; exact ⟨p, List.mem_cons_of_mem _ hp, hy⟩⟩
  funext y
  by_cases hm : y ∈ (Rect.unit (s := S1x45x128) ![0, ρ, 0] S1x1x128.size inb).set
  · obtain ⟨x, rfl⟩ := (Rect.unit (s := S1x45x128) ![0, ρ, 0] S1x1x128.size inb).exists_idx_of_mem hm
    have e1 : (((Rect.unit (s := S1x45x128) ![0, ρ, 0] S1x1x128.size inb).emb x) 1).val = ρ := by
      have h1 : (x 1).val = 0 := by have := (x 1).isLt; simp at this; omega
      show ρ + 1 * (x 1).val = ρ
      omega
    show View.canon (⟨_, w⟩ :: H) ((Rect.unit (s := S1x45x128) ![0, ρ, 0] S1x1x128.size inb).emb x)
      = stateG x0 x1 (ρ :: S) ((Rect.unit (s := S1x45x128) ![0, ρ, 0] S1x1x128.size inb).emb x)
    rw [View.canon_cons_emb, hw, hc]
    have hS : stateG x0 x1 S ((Rect.unit (s := S1x45x128) ![0, ρ, 0] S1x1x128.size inb).emb x)
        = zeroBlock ((Rect.unit (s := S1x45x128) ![0, ρ, 0] S1x1x128.size inb).emb x) := by
      unfold stateG; rw [e1, if_neg hρ]
    have hS' : stateG x0 x1 (ρ :: S) ((Rect.unit (s := S1x45x128) ![0, ρ, 0] S1x1x128.size inb).emb x)
        = blockAfter x0 x1 zeroBlock ((Rect.unit (s := S1x45x128) ![0, ρ, 0] S1x1x128.size inb).emb x) := by
      unfold stateG; rw [e1, if_pos List.mem_cons_self]
    rw [hS']
    exact blockAfter_congr x0 x1 _ _ _ hS
  · have hne := row_ne_of_not_mem ρ inb y hm
    show View.canon (⟨_, w⟩ :: H) y = _
    rw [View.canon_cons]
    rw [Rect.overlay_of_not_mem _ _ _ hm, hc]
    unfold stateG
    simp only [List.mem_cons, hne, false_or]

/-- One more row: a store to a row not yet stored, of the row's current contents plus the tile's term for it. -/
theorem good_step (x0 x1 : Vec F S4096x128 .f32) (H : List (View.Piece (Elt F) S1x45x128 .f32)) (S : List Nat) (ρ : Nat)
    (hρ : ρ ∉ S) (inb : ∀ a, (![0, ρ, 0] : Fin 3 → Nat) a + S1x1x128.size a ≤ S1x45x128.size a)
    (v : View sig .tc .vmem S1x45x128 .f32) (h : Good x0 x1 H S) :
    Good x0 x1 ((⟨Rect.unit (s := S1x45x128) ![0, ρ, 0] S1x1x128.size inb,
        vStore (vRow (ρ / 15) (ρ % 15) x0 x1)
          (v.readCov H (Rect.unit (s := S1x45x128) ![0, ρ, 0] S1x1x128.size inb).toLoadRect)⟩ :
          View.Piece (Elt F) S1x45x128 .f32) :: H) (ρ :: S) :=
  good_step' x0 x1 H S ρ hρ inb _ (fun x => by
    rw [View.readCov_eq_canon_ld _ _ _ h.2]
    exact row_store x0 x1 (View.canon H) ρ inb x) h

/-- An input block as the body loads it: the whole staging buffer read through the whole-block rectangle. -/
abbrev ldIn (a : Memref sig .tc .vmem S4096x128 .f32) (ha : a.IsWhole) (x : Vec F S4096x128 .f32) : Vec F S4096x128 .f32 :=
  View.readAt (Elt F) a.view (Rect.unit (s := S4096x128) ![0, 0] S4096x128.size inb_S4096x128_S4096x128_0_0).toLoadRect
    (ha.unread x)

/-- Loading the whole block reads the block. -/
theorem ldIn_eq (a : Memref sig .tc .vmem S4096x128 .f32) (ha : a.IsWhole) (x : Vec F S4096x128 .f32) : ldIn a ha x = x := by
  unfold ldIn
  simp only [View.readAt_eq_ld, ha.read_unread, View.ld_unit_zero (S := S4096x128) hz2]

/-- At the first tile of a half, the block ends as `blockAfter` of the tile's two input blocks and of the zero block. -/
theorem out_A (c : Dev nD) (i : grid0.Coords) (arg2 : Memref sig .tc .vmem S4096x128 .f32) (harg2 : arg2.IsWhole)
    (arg3 : Memref sig .tc .vmem S4096x128 .f32) (harg3 : arg3.IsWhole) (arg4 : Memref sig .tc .vmem S1x45x128 .f32)
    (harg4 : arg4.IsWhole) (hc0 : cond0_0 i) (x0 x1 : Vec F S4096x128 .f32) :
    out0_A_2 c i arg2 harg2 arg3 harg3 arg4 harg4 hc0 x0 x1 = blockAfter x0 x1 zeroBlock := by
  unfold out0_A_2
  rw [View.read_writes_eq_canon _ _ _ (cover0_A_2 c i arg2 harg2 arg3 harg3 arg4 harg4 hc0 x0 x1)]
  have key : Good (ldIn arg2 harg2 x0) (ldIn arg3 harg3 x1) (kernelRun0_A c i arg2 harg2 arg3 harg3 arg4 harg4 hc0 x0 x1).1 [44, 29, 14, 43, 28, 13, 42, 27, 12, 41, 26, 11, 40, 25, 10, 39, 24, 9, 38, 23, 8, 37, 22, 7, 36, 21, 6, 35, 20, 5, 34, 19, 4, 33, 18, 3, 32, 17, 2, 31, 16, 1, 30, 15, 0] := by
    unfold kernelRun0_A
    dsimp only
    refine good_step (ldIn arg2 harg2 x0) (ldIn arg3 harg3 x1) _ _ 44 ?_ _ _ ?_
    · decide
    unfold kernelRun0_A.sl.H2_45
    refine good_step (ldIn arg2 harg2 x0) (ldIn arg3 harg3 x1) _ _ 29 ?_ _ _ ?_
    · decide
    unfold kernelRun0_A.sl.H2_44
    refine good_step (ldIn arg2 harg2 x0) (ldIn arg3 harg3 x1) _ _ 14 ?_ _ _ ?_
    · decide
    unfold kernelRun0_A.sl.H2_43
    refine good_step (ldIn arg2 harg2 x0) (ldIn arg3 harg3 x1) _ _ 43 ?_ _ _ ?_
    · decide
    unfold kernelRun0_A.sl.H2_42
    refine good_step (ldIn arg2 harg2 x0) (ldIn arg3 harg3 x1) _ _ 28 ?_ _ _ ?_
    · decide
    unfold kernelRun0_A.sl.H2_41
    refine good_step (ldIn arg2 harg2 x0) (ldIn arg3 harg3 x1) _ _ 13 ?_ _ _ ?_
    · decide
    unfold kernelRun0_A.sl.H2_40
    refine good_step (ldIn arg2 harg2 x0) (ldIn arg3 harg3 x1) _ _ 42 ?_ _ _ ?_
    · decide
    unfold kernelRun0_A.sl.H2_39
    refine good_step (ldIn arg2 harg2 x0) (ldIn arg3 harg3 x1) _ _ 27 ?_ _ _ ?_
    · decide
    unfold kernelRun0_A.sl.H2_38
    refine good_step (ldIn arg2 harg2 x0) (ldIn arg3 harg3 x1) _ _ 12 ?_ _ _ ?_
    · decide
    unfold kernelRun0_A.sl.H2_37
    refine good_step (ldIn arg2 harg2 x0) (ldIn arg3 harg3 x1) _ _ 41 ?_ _ _ ?_
    · decide
    unfold kernelRun0_A.sl.H2_36
    refine good_step (ldIn arg2 harg2 x0) (ldIn arg3 harg3 x1) _ _ 26 ?_ _ _ ?_
    · decide
    unfold kernelRun0_A.sl.H2_35
    refine good_step (ldIn arg2 harg2 x0) (ldIn arg3 harg3 x1) _ _ 11 ?_ _ _ ?_
    · decide
    unfold kernelRun0_A.sl.H2_34
    refine good_step (ldIn arg2 harg2 x0) (ldIn arg3 harg3 x1) _ _ 40 ?_ _ _ ?_
    · decide
    unfold kernelRun0_A.sl.H2_33
    refine good_step (ldIn arg2 harg2 x0) (ldIn arg3 harg3 x1) _ _ 25 ?_ _ _ ?_
    · decide
    unfold kernelRun0_A.sl.H2_32
    refine good_step (ldIn arg2 harg2 x0) (ldIn arg3 harg3 x1) _ _ 10 ?_ _ _ ?_
    · decide
    unfold kernelRun0_A.sl.H2_31
    refine good_step (ldIn arg2 harg2 x0) (ldIn arg3 harg3 x1) _ _ 39 ?_ _ _ ?_
    · decide
    unfold kernelRun0_A.sl.H2_30
    refine good_step (ldIn arg2 harg2 x0) (ldIn arg3 harg3 x1) _ _ 24 ?_ _ _ ?_
    · decide
    unfold kernelRun0_A.sl.H2_29
    refine good_step (ldIn arg2 harg2 x0) (ldIn arg3 harg3 x1) _ _ 9 ?_ _ _ ?_
    · decide
    unfold kernelRun0_A.sl.H2_28
    refine good_step (ldIn arg2 harg2 x0) (ldIn arg3 harg3 x1) _ _ 38 ?_ _ _ ?_
    · decide
    unfold kernelRun0_A.sl.H2_27
    refine good_step (ldIn arg2 harg2 x0) (ldIn arg3 harg3 x1) _ _ 23 ?_ _ _ ?_
    · decide
    unfold kernelRun0_A.sl.H2_26
    refine good_step (ldIn arg2 harg2 x0) (ldIn arg3 harg3 x1) _ _ 8 ?_ _ _ ?_
    · decide
    unfold kernelRun0_A.sl.H2_25
    refine good_step (ldIn arg2 harg2 x0) (ldIn arg3 harg3 x1) _ _ 37 ?_ _ _ ?_
    · decide
    unfold kernelRun0_A.sl.H2_24
    refine good_step (ldIn arg2 harg2 x0) (ldIn arg3 harg3 x1) _ _ 22 ?_ _ _ ?_
    · decide
    unfold kernelRun0_A.sl.H2_23
    refine good_step (ldIn arg2 harg2 x0) (ldIn arg3 harg3 x1) _ _ 7 ?_ _ _ ?_
    · decide
    unfold kernelRun0_A.sl.H2_22
    refine good_step (ldIn arg2 harg2 x0) (ldIn arg3 harg3 x1) _ _ 36 ?_ _ _ ?_
    · decide
    unfold kernelRun0_A.sl.H2_21
    refine good_step (ldIn arg2 harg2 x0) (ldIn arg3 harg3 x1) _ _ 21 ?_ _ _ ?_
    · decide
    unfold kernelRun0_A.sl.H2_20
    refine good_step (ldIn arg2 harg2 x0) (ldIn arg3 harg3 x1) _ _ 6 ?_ _ _ ?_
    · decide
    unfold kernelRun0_A.sl.H2_19
    refine good_step (ldIn arg2 harg2 x0) (ldIn arg3 harg3 x1) _ _ 35 ?_ _ _ ?_
    · decide
    unfold kernelRun0_A.sl.H2_18
    refine good_step (ldIn arg2 harg2 x0) (ldIn arg3 harg3 x1) _ _ 20 ?_ _ _ ?_
    · decide
    unfold kernelRun0_A.sl.H2_17
    refine good_step (ldIn arg2 harg2 x0) (ldIn arg3 harg3 x1) _ _ 5 ?_ _ _ ?_
    · decide
    unfold kernelRun0_A.sl.H2_16
    refine good_step (ldIn arg2 harg2 x0) (ldIn arg3 harg3 x1) _ _ 34 ?_ _ _ ?_
    · decide
    unfold kernelRun0_A.sl.H2_15
    refine good_step (ldIn arg2 harg2 x0) (ldIn arg3 harg3 x1) _ _ 19 ?_ _ _ ?_
    · decide
    unfold kernelRun0_A.sl.H2_14
    refine good_step (ldIn arg2 harg2 x0) (ldIn arg3 harg3 x1) _ _ 4 ?_ _ _ ?_
    · decide
    unfold kernelRun0_A.sl.H2_13
    refine good_step (ldIn arg2 harg2 x0) (ldIn arg3 harg3 x1) _ _ 33 ?_ _ _ ?_
    · decide
    unfold kernelRun0_A.sl.H2_12
    refine good_step (ldIn arg2 harg2 x0) (ldIn arg3 harg3 x1) _ _ 18 ?_ _ _ ?_
    · decide
    unfold kernelRun0_A.sl.H2_11
    refine good_step (ldIn arg2 harg2 x0) (ldIn arg3 harg3 x1) _ _ 3 ?_ _ _ ?_
    · decide
    unfold kernelRun0_A.sl.H2_10
    refine good_step (ldIn arg2 harg2 x0) (ldIn arg3 harg3 x1) _ _ 32 ?_ _ _ ?_
    · decide
    unfold kernelRun0_A.sl.H2_9
    refine good_step (ldIn arg2 harg2 x0) (ldIn arg3 harg3 x1) _ _ 17 ?_ _ _ ?_
    · decide
    unfold kernelRun0_A.sl.H2_8
    refine good_step (ldIn arg2 harg2 x0) (ldIn arg3 harg3 x1) _ _ 2 ?_ _ _ ?_
    · decide
    unfold kernelRun0_A.sl.H2_7
    refine good_step (ldIn arg2 harg2 x0) (ldIn arg3 harg3 x1) _ _ 31 ?_ _ _ ?_
    · decide
    unfold kernelRun0_A.sl.H2_6
    refine good_step (ldIn arg2 harg2 x0) (ldIn arg3 harg3 x1) _ _ 16 ?_ _ _ ?_
    · decide
    unfold kernelRun0_A.sl.H2_5
    refine good_step (ldIn arg2 harg2 x0) (ldIn arg3 harg3 x1) _ _ 1 ?_ _ _ ?_
    · decide
    unfold kernelRun0_A.sl.H2_4
    refine good_step (ldIn arg2 harg2 x0) (ldIn arg3 harg3 x1) _ _ 30 ?_ _ _ ?_
    · decide
    unfold kernelRun0_A.sl.H2_3
    refine good_step (ldIn arg2 harg2 x0) (ldIn arg3 harg3 x1) _ _ 15 ?_ _ _ ?_
    · decide
    unfold kernelRun0_A.sl.H2_2
    refine good_step (ldIn arg2 harg2 x0) (ldIn arg3 harg3 x1) _ _ 0 ?_ _ _ ?_
    · decide
    unfold kernelRun0_A.sl.H2_1
    exact good_base (ldIn arg2 harg2 x0) (ldIn arg3 harg3 x1) _
  rw [ldIn_eq, ldIn_eq] at key
  rw [key.1]
  funext y
  unfold stateG
  have hy : (y 1).val ∈ ([44, 29, 14, 43, 28, 13, 42, 27, 12, 41, 26, 11, 40, 25, 10, 39, 24, 9, 38, 23, 8, 37, 22, 7, 36, 21, 6, 35, 20, 5, 34, 19, 4, 33, 18, 3, 32, 17, 2, 31, 16, 1, 30, 15, 0] : List Nat) := by
    have := (y 1).isLt
    have h45 : (y 1).val < 45 := this
    revert h45
    generalize (y 1).val = n
    intro h45
    interval_cases n <;> decide
  rw [if_pos hy]

end Cert.KernelIdeal.Tile

end
-- ==== Proof.KerAcc.lean ====
/-
  The output array after the region: each half's block is the sum of its 64 tiles' terms.

  What the 45-row block holds after tile `t` is given by recursion on the tile: at the first tile of a half it is the
  zero block plus that tile's term, at every other tile what the tile before left plus this tile's term (the two cases of
  the body). Such a recursion is a fold, and a fold of additions is a sum: after tile `t` the block is zero plus the sum
  of the terms of the tiles `64·⌊t/64⌋ … t` (`outsAt_eq`). The block is written back to the array once per half, after
  the half's last tile, as block `⌊t/64⌋` of the `[2, 45, 128]` array; those two blocks cover the array, so entry
  `(g, row, l)` of the array ends as zero plus the sum over the 64 tiles `64·g + s` of the tile's term at `(row, l)`
  (`final_arr`).
-/
import proofs.«109002_j88493506167218_2_alg».proof.Proof.KerBlockA
import Idealize.ShloMosaic.PureOps.Ideal.Laws

set_option maxRecDepth 16384

noncomputable section

open scoped BigOperators

namespace Cert.KernelIdeal.Tile

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Tile `p`'s term at row `row`, lane `l` of the block (zero past the last tile: never used). -/
def tileTerm (c : Dev nD) (p : Nat) (row : Nat) (l : Fin 128) : EReal :=
  if h : p < cfg0.N then
    vRow (F := Ideal) (row / 15) (row % 15) (iblk m c 0 ⟨p, h⟩) (iblk m c 1 ⟨p, h⟩) (ix2 (0 : Fin 1) l)
  else 0

theorem blockAfter_apply (c : Dev nD) (p : Nat) (h : p < cfg0.N) (acc : Vec Ideal S1x45x128 .f32) (y : S1x45x128.Idx) :
    blockAfter (F := Ideal) (iblk m c 0 ⟨p, h⟩) (iblk m c 1 ⟨p, h⟩) acc y = acc y + tileTerm m c p (y 1).val (laneOf y) := by
  unfold blockAfter tileTerm
  rw [dif_pos h]
  rfl

/-- After tile `t` the block is the zero block plus the sum of the terms of the tiles of `t`'s half up to `t`. -/
theorem outsAt_eq (c : Dev nD) (t : Nat) (ht : t < cfg0.N) (y : S1x45x128.Idx) :
    outsAt0 m c t ht y
      = zeroBlock (F := Ideal) y + ∑ s ∈ Finset.range (t % 64 + 1), tileTerm m c (64 * (t / 64) + s) (y 1).val (laneOf y) := by
  have hN : cfg0.N = 128 := N_0
  have h' : 64 * (t / 64) + t % 64 < cfg0.N := by rw [Nat.div_add_mod]; exact ht
  rw [Pipeline.eq_accAt_of_mod (fun n h => outsAt0 m c n h) 64
    (fun n h => blockAfter (F := Ideal) (iblk m c 0 ⟨n, h⟩) (iblk m c 1 ⟨n, h⟩) zeroBlock)
    (fun n h acc => blockAfter (F := Ideal) (iblk m c 0 ⟨n, h⟩) (iblk m c 1 ⟨n, h⟩) acc)
    (fun n h h0 => (outsAt0_A m c ⟨n, h⟩ h0).trans (out_A ..))
    (fun n h hB => (outsAt0_B m c ⟨n + 1, h⟩ hB).trans (out_B ..))
    (by decide) t ht h']
  exact Pipeline.accAt_add_apply _ _ (zeroBlock (F := Ideal)) (fun n y => tileTerm m c n (y 1).val (laneOf y))
    (64 * (t / 64)) 63
    (fun h i => blockAfter_apply m c _ h _ i)
    (fun n h acc i _ _ => blockAfter_apply m c n h acc i)
    (t % 64) (by omega) h' y

/-- The array after the region, entry by entry: zero plus the sum of the 64 tiles' terms of the entry's half. -/
def finalArr (c : Dev nD) (i : S2x45x128.Idx) : EReal :=
  FloatOps.ofBits (F := Ideal) .f32 0x00000000#32
    + ∑ s ∈ Finset.range 64, tileTerm m c (64 * (i 0).val + s) (i 1).val ⟨(i 2).val, (i 2).isLt⟩

/-- The output window's block index at tile `t` is `(⌊t/64⌋, 0, 0)` — decided over the grid. -/
theorem idx_facts : ∀ t : Fin cfg0.N, win0_2.index t (0 : Fin 3) = t.val / 64
    ∧ win0_2.index t (1 : Fin 3) = 0 ∧ win0_2.index t (2 : Fin 3) = 0 :=
  (by decide +kernel : ∀ t : Fin grid0.N, _)

/-- What a half's last tile writes back is that half's block of `finalArr`. -/
theorem flushed_eq (c : Dev nD) (t : Fin cfg0.N) (hf : (cfg0.win 2).flush t = true) :
    (dats m 0 c).flushed 2 t = ((cfg0.win 2).blk t).view.read (Elt Ideal) (finalArr m c) := by
  have h63 : t.val % 64 = 63 := (flush0_2 t).mp hf
  obtain ⟨e0, e1, e2⟩ := idx_facts t
  show (cfg0.win 2).cut (grid0.coords t) ((dats m 0 c).after 2 t) = _
  rw [after0_2]
  funext j
  show outsAt0 m c t.val t.isLt j = finalArr m c (((cfg0.win 2).blk t).view.emb j)
  rw [outsAt_eq, h63]
  have h0 : (j 0).val = 0 := by have hj : (j 0).val < 1 := (j 0).isLt; omega
  have a0 : ((((cfg0.win 2).blk t).view.emb j) 0).val = t.val / 64 := by
    show win0_2.index t (0 : Fin 3) * 1 + 1 * (j 0).val = t.val / 64
    omega
  have a1 : ((((cfg0.win 2).blk t).view.emb j) 1).val = (j 1).val := by
    show win0_2.index t (1 : Fin 3) * 45 + 1 * (j 1).val = (j 1).val
    omega
  have a2 : ((((cfg0.win 2).blk t).view.emb j) 2).val = (j 2).val := by
    show win0_2.index t (2 : Fin 3) * 128 + 1 * (j 2).val = (j 2).val
    omega
  unfold finalArr
  simp only [a0, a1, a2]
  rfl

/-- An index of the array is in tile `t`'s block iff each coordinate is in the block's range on its axis. -/
theorem mem_blk (t : Fin cfg0.N) (i : S2x45x128.Idx) :
    i ∈ ((cfg0.win 2).blk t).view.set ↔ ∀ a : Fin 3, win0_2.index t a * S1x45x128.size a ≤ (i a).val
      ∧ (i a).val < win0_2.index t a * S1x45x128.size a + S1x45x128.size a := by
  show i ∈ ((View.whole main_v2).slice (win0_2.rect t)).set ↔ _
  rw [View.set_slice_whole, Rect.mem_set_unit]
  exact Iff.rfl

/-- The two halves' blocks cover the array: entry `(g, row, l)` is in the block written after tile `64·g + 63`. -/
theorem cover (i : S2x45x128.Idx) :
    ∃ t : Fin cfg0.N, (cfg0.win 2).flush t = true ∧ i ∈ ((cfg0.win 2).blk t).view.set := by
  have hN : cfg0.N = 128 := N_0
  have hi0 : (i 0).val < 2 := (i 0).isLt
  have hi1 : (i 1).val < 45 := (i 1).isLt
  have hi2 : (i 2).val < 128 := (i 2).isLt
  refine ⟨⟨64 * (i 0).val + 63, by omega⟩, (flush0_2 _).mpr (by show (64 * (i 0).val + 63) % 64 = 63; omega), ?_⟩
  obtain ⟨e0, e1, e2⟩ := idx_facts ⟨64 * (i 0).val + 63, by omega⟩
  rw [mem_blk]
  intro a
  match a with
  | ⟨0, _⟩ =>
    show win0_2.index _ (0 : Fin 3) * 1 ≤ (i 0).val ∧ (i 0).val < win0_2.index _ (0 : Fin 3) * 1 + 1
    rw [e0]; show (64 * (i 0).val + 63) / 64 * 1 ≤ (i 0).val ∧ (i 0).val < (64 * (i 0).val + 63) / 64 * 1 + 1; omega
  | ⟨1, _⟩ =>
    show win0_2.index _ (1 : Fin 3) * 45 ≤ (i 1).val ∧ (i 1).val < win0_2.index _ (1 : Fin 3) * 45 + 45
    rw [e1]; omega
  | ⟨2, _⟩ =>
    show win0_2.index _ (2 : Fin 3) * 128 ≤ (i 2).val ∧ (i 2).val < win0_2.index _ (2 : Fin 3) * 128 + 128
    rw [e2]; omega

/-- The output array after the region is `finalArr`. -/
theorem final_arr (c : Dev nD) : (dats m 0 c).arrAt 2 cfg0.N = finalArr m c :=
  (dats m 0 c).arrAt_eq_of_cover 2 (finalArr m c) (flushed_eq m c) (cover)

end Cert.KernelIdeal.Tile

end
-- ==== Proof.KerRow.lean ====
/-
  One tile's row term at a lane is the specification's cell, over the extended reals.

  A tile is 4096 rows by 128 lanes of logits and of labels. Every term of the tile's arithmetic is pointwise except the
  sum down the rows, so at an entry the confidence is the logistic function of the logit, the bin word the bin of the
  logit, the mask the indicator of the bin, and a masked addend the specification's weight; the sum down the rows, read
  at a lane, is the sum over the lane's 4096 entries (a one-axis reduction followed by the addition of a unit axis).
  With the tile's blocks read as samples (p · 4096 + r) · 128 + l of the two sequences, the masked sum, the whole-lane
  total and the running sum over the bins below j (a left fold of additions from zero, by induction on j) are the
  specification's, and so is the row: the masked sum for bins 0 … 13, the total minus the running sum for bin 14.
-/
import proofs.«109002_j88493506167218_2_alg».proof.Proof.KerTile
import proofs.«109002_j88493506167218_2_alg».proof.Proof.Calib
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Tile

open Idealize.ShloMosaic Idealize.ShloMosaic.TcCoe Idealize.SL.Sem
open Cert.KernelIdeal Cert.KernelIdeal.Gen
open Idealize.ShloMosaic.ValueIdx

/-! ## The pointwise terms at an entry -/

/-- An entry's confidence is the logistic function of its logit. -/
theorem vConf_apply (x0 : Vec Ideal S4096x128 .f32) (i : S4096x128.Idx) :
    vConf (F := Ideal) x0 i = Cert.Calib.conf (x0 i) := by
  unfold vConf
  rw [shapeCast_self]
  rfl

/-- An entry's label is the block's entry. -/
theorem vLab_apply (x1 : Vec Ideal S4096x128 .f32) (i : S4096x128.Idx) : vLab (F := Ideal) x1 i = x1 i := by
  unfold vLab
  rw [shapeCast_self]

/-- An entry's bin word is the bin of its logit. -/
theorem vIdx_apply (x0 : Vec Ideal S4096x128 .f32) (i : S4096x128.Idx) :
    vIdx (F := Ideal) x0 i = Cert.Calib.binOf (x0 i) := by
  show IntOp.minsi 14#32 (IntOp.maxsi 0#32 (IntOp.subi
      (FloatOps.fptosi 32 (FloatOps.ceil (FloatOps.mulf (vConf (F := Ideal) x0 i) (FloatOps.ofBits .f32 0x41700000#32))))
      1#32)) = _
  rw [vConf_apply]
  rfl

/-- An entry's mask for bin b is the indicator of b at its logit. -/
theorem vMsk_apply (b : BitVec 32) (x0 : Vec Ideal S4096x128 .f32) (i : S4096x128.Idx) :
    vMsk (F := Ideal) b x0 i = Cert.Calib.ind b (x0 i) := by
  show FloatOps.sitofp .f32 ((IntOp.cmpi .eq (vIdx (F := Ideal) x0 i) b).setWidth 32) = _
  rw [vIdx_apply]
  rfl

/-! ## The sum down the rows at a lane -/

/-- The one-row block of lane sums, read at a lane, is the sum of the lane's 4096 entries. -/
theorem vSum_apply (v : FVec Ideal S4096x128 .f32) (l : Fin 128) :
    vSum v (ix2 (0 : Fin 1) l) = ∑ r : Fin 4096, v (ix2 r l) := by
  unfold vSum
  refine (shapeCast_addUnit_apply (n := 1) ![128] _ _ _).trans ?_
  refine (Ideal.multiReduction_add_single v _ reduces_S4096x128_S128 _ _ _).trans ?_
  refine Finset.sum_congr rfl fun r _ => congrArg v ?_
  funext c
  match c with
  | ⟨0, _⟩ => exact Fin.ext rfl
  | ⟨1, _⟩ => exact Fin.ext rfl

/-! ## The masked sums, the whole-lane total, the running sum and the row at a lane

The tile is tile p of the samples: its logits block reads sample ((p · 4096 + r) · 128 + l) of X at row r, lane l, its
labels block the same sample of Y. -/

/-- Statistic k of bin b at a lane is the specification's masked sum over the tile's rows. -/
theorem vPart_apply (k : Fin 3) (b : BitVec 32) (X Y : Fin Cert.Calib.NS → Ideal .f32) (p : Nat)
    (x0 x1 : Vec Ideal S4096x128 .f32)
    (h0 : ∀ (r : Fin 4096) (l : Fin 128), x0 (ix2 r l) = Cert.Calib.ext X (Cert.Calib.sampleAt p r l))
    (h1 : ∀ (r : Fin 4096) (l : Fin 128), x1 (ix2 r l) = Cert.Calib.ext Y (Cert.Calib.sampleAt p r l))
    (l : Fin 128) :
    vPart (F := Ideal) k.val b x0 x1 (ix2 (0 : Fin 1) l) = Cert.Calib.part k b X Y p l := by
  unfold Cert.Calib.part
  fin_cases k
  · show vSum (vMsk (F := Ideal) b x0) _ = _
    rw [vSum_apply]
    refine Finset.sum_congr rfl fun r _ => ?_
    rw [vMsk_apply, h0]; rfl
  · show vSum (mulf (vMsk (F := Ideal) b x0) (vConf x0)) _ = _
    rw [vSum_apply]
    refine Finset.sum_congr rfl fun r _ => ?_
    rw [mulf_apply, vMsk_apply, vConf_apply, h0]; rfl
  · show vSum (mulf (vMsk (F := Ideal) b x0) (vLab x1)) _ = _
    rw [vSum_apply]
    refine Finset.sum_congr rfl fun r _ => ?_
    rw [mulf_apply, vMsk_apply, vLab_apply, h0, h1]; rfl

/-- The whole-lane total of statistic k at a lane is the specification's: 4096, the sum of the tile's confidences down
    the lane, the sum of its labels. -/
theorem vTot_apply (k : Fin 3) (X Y : Fin Cert.Calib.NS → Ideal .f32) (p : Nat)
    (x0 x1 : Vec Ideal S4096x128 .f32)
    (h0 : ∀ (r : Fin 4096) (l : Fin 128), x0 (ix2 r l) = Cert.Calib.ext X (Cert.Calib.sampleAt p r l))
    (h1 : ∀ (r : Fin 4096) (l : Fin 128), x1 (ix2 r l) = Cert.Calib.ext Y (Cert.Calib.sampleAt p r l))
    (l : Fin 128) :
    vTot (F := Ideal) k.val x0 x1 (ix2 (0 : Fin 1) l) = Cert.Calib.total k X Y p l := by
  fin_cases k
  · rfl
  · show vSum (vConf (F := Ideal) x0) _ = ∑ r : Fin 4096, Cert.Calib.conf (Cert.Calib.ext X (Cert.Calib.sampleAt p r l))
    rw [vSum_apply]
    refine Finset.sum_congr rfl fun r _ => ?_
    rw [vConf_apply, h0]
  · show vSum (vLab (F := Ideal) x1) _ = ∑ r : Fin 4096, Cert.Calib.ext Y (Cert.Calib.sampleAt p r l)
    rw [vSum_apply]
    refine Finset.sum_congr rfl fun r _ => ?_
    rw [vLab_apply, h1]

/-- The running sum over the bins below j at a lane is the left fold of additions of the specification's masked sums,
    from zero, in bin order. -/
theorem vAcc_apply (k : Fin 3) (X Y : Fin Cert.Calib.NS → Ideal .f32) (p : Nat)
    (x0 x1 : Vec Ideal S4096x128 .f32)
    (h0 : ∀ (r : Fin 4096) (l : Fin 128), x0 (ix2 r l) = Cert.Calib.ext X (Cert.Calib.sampleAt p r l))
    (h1 : ∀ (r : Fin 4096) (l : Fin 128), x1 (ix2 r l) = Cert.Calib.ext Y (Cert.Calib.sampleAt p r l))
    (l : Fin 128) (j : Nat) :
    vAcc (F := Ideal) k.val x0 x1 j (ix2 (0 : Fin 1) l)
      = (List.range j).foldl (fun a b => a + Cert.Calib.part k (BitVec.ofNat 32 b) X Y p l) (0 : EReal) := by
  induction j with
  | zero =>
    show Ideal.ofBits .f32 0x00000000#32 = _
    rw [Ideal.ofBits_zero_f32]; rfl
  | succ j ih =>
    show vAcc (F := Ideal) k.val x0 x1 j (ix2 (0 : Fin 1) l)
        + vPart (F := Ideal) k.val (BitVec.ofNat 32 j) x0 x1 (ix2 (0 : Fin 1) l) = _
    rw [ih, vPart_apply k _ X Y p x0 x1 h0 h1, List.range_succ, List.foldl_append]
    rfl

/-- One tile's row term at a lane is the specification's cell: the masked sum for bins 0 … 13, the total minus the
    running sum of the fourteen others for bin 14. -/
theorem vRow_apply (k : Fin 3) (n : Fin 15) (X Y : Fin Cert.Calib.NS → Ideal .f32) (p : Nat)
    (x0 x1 : Vec Ideal S4096x128 .f32)
    (h0 : ∀ (r : Fin 4096) (l : Fin 128), x0 (ValueIdx.ix2 r l) = Cert.Calib.ext X (Cert.Calib.sampleAt p r l))
    (h1 : ∀ (r : Fin 4096) (l : Fin 128), x1 (ValueIdx.ix2 r l) = Cert.Calib.ext Y (Cert.Calib.sampleAt p r l))
    (l : Fin 128) :
    vRow (F := Ideal) k.val n.val x0 x1 (ValueIdx.ix2 (0 : Fin 1) l) = Cert.Calib.cell k n X Y p l := by
  unfold vRow Cert.Calib.cell
  by_cases hn : n.val < 14
  · rw [if_pos hn, if_pos hn]
    exact vPart_apply k _ X Y p x0 x1 h0 h1 l
  · rw [if_neg hn, if_neg hn, subf_apply, vTot_apply k X Y p x0 x1 h0 h1, vAcc_apply k X Y p x0 x1 h0 h1]
    rfl

end Cert.KernelIdeal.Tile

end
-- ==== Proof.KerEntry.lean ====
/-
  A tile's input blocks are runs of the flat argument arrays.

  Before the region the two arguments, flat arrays of 67,108,864 entries, are viewed as `[524288, 128]` matrices
  (entry `(R, l)` is flat entry `R · 128 + l`). Input window `w` at tile `p` is the block of rows
  `p · 4096 … p · 4096 + 4095` of matrix `w`. So entry `(r, l)` of tile `p`'s block is flat entry
  `(p · 4096 + r) · 128 + l` of argument `w`.
-/
import proofs.«109002_j88493506167218_2_alg».proof.Proof.Gen.KernelIdeal.Frame
import proofs.«109002_j88493506167218_2_alg».proof.Proof.Calib
import Idealize.ShloMosaic.Lib.Pipeline.Value
import Idealize.ShloMosaic.Lib.StableHlo.Run
import Idealize.ShloMosaic.Lib.ValueIdx

set_option maxRecDepth 16384

noncomputable section

namespace Cert.KernelIdeal.Tile

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The logits, as a sequence of samples. -/
def argX (c : Dev nD) : Fin Cert.Calib.NS → Ideal .f32 := fun e => m ((c : Thread nD τ).loc main_arg0) (ix1 e)
/-- The labels, as a sequence of samples. -/
def argY (c : Dev nD) : Fin Cert.Calib.NS → Ideal .f32 := fun e => m ((c : Thread nD τ).loc main_arg1) (ix1 e)

/-- The region finds the first matrix as the row-major view of the logits. -/
theorem V_v0 (c : Dev nD) : (V m c main_v0 : S524288x128.Idx → EReal)
    = shapeCast S524288x128 (m ((c : Thread nD τ).loc main_arg0)) shapeCasts_S67108864_S524288x128 := by
  show StableHlo.after hostOps0 (fun b => m (c, b)) (Proc.devRef .tc main_v0) = _
  after_results
  rfl

/-- The region finds the second matrix as the row-major view of the labels. -/
theorem V_v1 (c : Dev nD) : (V m c main_v1 : S524288x128.Idx → EReal)
    = shapeCast S524288x128 (m ((c : Thread nD τ).loc main_arg1)) shapeCasts_S67108864_S524288x128 := by
  show StableHlo.after hostOps0 (fun b => m (c, b)) (Proc.devRef .tc main_v1) = _
  after_results
  rfl

/-- Both input windows' block index at tile `t` is `(t, 0)` — decided over the grid. -/
theorem in_idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A matrix entry of the row-major view of a flat array. -/
theorem view_apply (A : S67108864.Idx → EReal) (R : Nat) (l : Nat) (hR : R < 524288) (hl : l < 128)
    (i : S524288x128.Idx) (hi0 : (i 0).val = R) (hi1 : (i 1).val = l) :
    shapeCast S524288x128 A shapeCasts_S67108864_S524288x128 i = A (ix1 ⟨R * 128 + l, by omega⟩) := by
  refine shapeCast_apply A _ i _ ?_
  rw [Shape.rowMajor_val_one, Shape.rowMajor_val_two]
  show R * 128 + l = (i 0).val * 128 + (i 1).val
  rw [hi0, hi1]

/-- Entry `(r, l)` of tile `p`'s logits block is sample `(p · 4096 + r) · 128 + l` of the logits. -/
theorem iblk0_apply (c : Dev nD) (p : Nat) (h : p < cfg0.N) (r : Fin 4096) (l : Fin 128) :
    (iblk m c 0 ⟨p, h⟩ : Vec Ideal S4096x128 .f32) (ix2 r l) = Cert.Calib.ext (argX m c) (Cert.Calib.sampleAt p r l) := by
  have hN : cfg0.N = 128 := N_0
  obtain ⟨e0', e1, -, -⟩ := in_idx_facts ⟨p, h⟩
  have e0 : win0_0.index ⟨p, h⟩ (0 : Fin 2) = p := e0'
  have hs : Cert.Calib.sampleAt p r l < Cert.Calib.NS := by
    unfold Cert.Calib.sampleAt; have := r.isLt; have := l.isLt; show _ < 67108864; omega
  unfold Cert.Calib.ext
  rw [dif_pos hs]
  show V m c main_v0 (((cfg0.win 0).blk ⟨p, h⟩).view.emb (ix2 r l)) = _
  rw [V_v0]
  refine (view_apply _ (p * 4096 + r.val) l.val (by have := r.isLt; omega) l.isLt _ ?_ ?_).trans ?_
  · show win0_0.index ⟨p, h⟩ (0 : Fin 2) * 4096 + 1 * r.val = p * 4096 + r.val
    rw [e0]; omega
  · show win0_0.index ⟨p, h⟩ (1 : Fin 2) * 128 + 1 * l.val = l.val
    rw [e1]; omega
  · rfl

/-- Entry `(r, l)` of tile `p`'s labels block is sample `(p · 4096 + r) · 128 + l` of the labels. -/
theorem iblk1_apply (c : Dev nD) (p : Nat) (h : p < cfg0.N) (r : Fin 4096) (l : Fin 128) :
    (iblk m c 1 ⟨p, h⟩ : Vec Ideal S4096x128 .f32) (ix2 r l) = Cert.Calib.ext (argY m c) (Cert.Calib.sampleAt p r l) := by
  have hN : cfg0.N = 128 := N_0
  obtain ⟨-, -, e0', e1⟩ := in_idx_facts ⟨p, h⟩
  have e0 : win0_1.index ⟨p, h⟩ (0 : Fin 2) = p := e0'
  have hs : Cert.Calib.sampleAt p r l < Cert.Calib.NS := by
    unfold Cert.Calib.sampleAt; have := r.isLt; have := l.isLt; show _ < 67108864; omega
  unfold Cert.Calib.ext
  rw [dif_pos hs]
  show V m c main_v1 (((cfg0.win 1).blk ⟨p, h⟩).view.emb (ix2 r l)) = _
  rw [V_v1]
  refine (view_apply _ (p * 4096 + r.val) l.val (by have := r.isLt; omega) l.isLt _ ?_ ?_).trans ?_
  · show win0_1.index ⟨p, h⟩ (0 : Fin 2) * 4096 + 1 * r.val = p * 4096 + r.val
    rw [e0]; omega
  · show win0_1.index ⟨p, h⟩ (1 : Fin 2) * 128 + 1 * l.val = l.val
    rw [e1]; omega
  · rfl

end Cert.KernelIdeal.Tile

end
-- ==== Proof.KerTail.lean ====
/-
  The host operations after the region, as one term of the region's output array, and that term read over the
  extended reals.

  The region's output is two halves' blocks of 45 rows by 128 lanes: row 15 k + n holds statistic k (count, sum of
  confidences, sum of labels) of bin n, per lane and per half. The tail sums the two halves from zero, then the 128
  lanes from zero, giving the 45 statistics; cuts them into the fifteen counts, sums of confidences and sums of labels;
  forms each bin's term |sum of confidences / divisor - sum of labels / divisor| · (count / 2^26), the divisor being the
  count where the bin is non-empty and one elsewhere, the term zero where the bin is empty; sums the fifteen terms from
  zero; and presents the sum as a one-element array. Every step but the three sums is entrywise, so over the extended
  reals the result is the specification's expected calibration error of the 45 statistics, each statistic zero plus the
  sum over the lanes of zero plus the sum over the halves of the output array's entries.
-/
import proofs.«109002_j88493506167218_2_alg».proof.Proof.Gen.KernelIdeal.Frame
import proofs.«109002_j88493506167218_2_alg».proof.Proof.Calib
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

set_option maxRecDepth 16384

noncomputable section

open scoped BigOperators

namespace Cert.KernelIdeal.Tile

open Idealize.ShloMosaic Idealize.ShloMosaic.TcCoe Idealize.SL.Sem Idealize.ShloMosaic.StableHlo
open Cert.KernelIdeal Cert.KernelIdeal.Gen

variable {F : FTy → Type} [FloatOps F]

/-- The 45 statistics from the two halves' 45 × 128 blocks: summed over the two halves, then over the 128 lanes, each
    sum from zero. -/
def tailStats (A : (⟨S2x45x128, .f32⟩ : BufTy).Contents (Elt F)) : (⟨S45, .f32⟩ : BufTy).Contents (Elt F) :=
  Host.reduceAdd (Host.reduceAdd A (constant S_ .f32 0x00000000#32) reducesTo_S2x45x128_S45x128_d0 h_S_)
    (constant S_ .f32 0x00000000#32) reducesTo_S45x128_S45_d1 h_S_

/-- The fifteen counts. -/
def tailCnt (v : (⟨S45, .f32⟩ : BufTy).Contents (Elt F)) : (⟨S15, .f32⟩ : BufTy).Contents (Elt F) :=
  extractStridedSlice S15 ![0] v slices_S45_S15_0

/-- The fifteen bins, non-empty or not. -/
def tailPos (v : (⟨S45, .f32⟩ : BufTy).Contents (Elt F)) : (⟨S15, .i1⟩ : BufTy).Contents (Elt F) :=
  cmpf (F := F) .ogt (tailCnt v) (broadcastInDim S15 ![] bcast_S_S15 (constant S_ .f32 0x00000000#32))

/-- The fifteen divisors: the count where the bin is non-empty, one elsewhere. -/
def tailSafe (v : (⟨S45, .f32⟩ : BufTy).Contents (Elt F)) : (⟨S15, .f32⟩ : BufTy).Contents (Elt F) :=
  select (tailPos v) (tailCnt v) (broadcastInDim S15 ![] bcast_S_S15 (id (constant S_ .f32 0x3F800000#32)))

/-- The fifteen sums of confidences. -/
def tailConf (v : (⟨S45, .f32⟩ : BufTy).Contents (Elt F)) : (⟨S15, .f32⟩ : BufTy).Contents (Elt F) :=
  extractStridedSlice S15 ![15] v slices_S45_S15_15

/-- The fifteen sums of labels. -/
def tailLab (v : (⟨S45, .f32⟩ : BufTy).Contents (Elt F)) : (⟨S15, .f32⟩ : BufTy).Contents (Elt F) :=
  extractStridedSlice S15 ![30] v slices_S45_S15_30

/-- The fifteen bins' terms: |sum of confidences / divisor - sum of labels / divisor| · (count / 2^26) where the bin is
    non-empty, zero elsewhere. -/
def tailTerms (v : (⟨S45, .f32⟩ : BufTy).Contents (Elt F)) : (⟨S15, .f32⟩ : BufTy).Contents (Elt F) :=
  select (tailPos v)
    (mulf
      (Host.absf (subf (Host.divf (tailConf v) (tailSafe v)) (Host.divf (tailLab v) (tailSafe v))))
      (Host.divf (tailCnt v) (broadcastInDim S15 ![] bcast_S_S15 (constant S_ .f32 0x4C800000#32))))
    (broadcastInDim S15 ![] bcast_S_S15 (id (constant S_ .f32 0x00000000#32)))

/-- The result from the 45 statistics: the fifteen bins' terms summed from zero, as a one-element array. -/
def tailEpi (v : (⟨S45, .f32⟩ : BufTy).Contents (Elt F)) : (⟨S1, .f32⟩ : BufTy).Contents (Elt F) :=
  shapeCast S1 (Host.reduceAdd (tailTerms v) (constant S_ .f32 0x00000000#32) reducesTo_S15_S_d0 h_S_) shapeCasts_S_S1

/-- The host operations after the region, as one term of the region's output array. -/
def tailOf (A : (⟨S2x45x128, .f32⟩ : BufTy).Contents (Elt F)) : (⟨S1, .f32⟩ : BufTy).Contents (Elt F) :=
  tailEpi (tailStats A)

set_option maxHeartbeats 2000000 in
theorem tail_run (m : (ℓ : Loc nD τ sig) → Buf (Elt F) ℓ) (c : Dev nD) :
    Pipeline.afterTail₀ cfgs (dats m) 0 (V0 m) [hostOps1, hostOps1_1, hostOps1_2, hostOps1_3, hostOps1_4] c main_v20
      = tailOf ((dats m 0 c).arrAt 2 cfg0.N) := by
  unfold Pipeline.afterTail₀
  simp only [hostOps1, hostOps1_1, hostOps1_2, hostOps1_3, hostOps1_4, List.flatten_cons, List.flatten_nil,
    List.append_nil, List.cons_append, List.nil_append]
  after_results_simp
  have hA : Pipeline.withArrays (cfgs 0).spec c (V0 m c) (fun w => (dats m 0 c).arrAt w (cfgs 0).N)
      (Proc.devRef .tc main_v2) = (dats m 0 c).arrAt 2 cfg0.N :=
    Pipeline.withArrays_arr spec0 launch0.win.arr_inj c _ _ 2
  rw [hA]
  rfl

/-! ## The tail read over the extended reals -/

open Idealize.ShloMosaic.ValueIdx

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  exact (Equiv.sum_comp e.symm f).symm

/-- Statistic q of the 45: zero plus the sum over the lanes of zero plus the sum over the two halves. -/
theorem tailStats_apply (A : S2x45x128.Idx → EReal) (q : Fin 45) :
    tailStats (F := Ideal) A (ix1 q)
      = (0 : EReal) + ∑ l : Fin 128, ((0 : EReal) + ∑ g : Fin 2, A (ix3 g q l)) := by
  show Ideal.hostReduceAdd reducesTo_S45x128_S45_d1
      (Ideal.hostReduceAdd reducesTo_S2x45x128_S45x128_d0 A (Ideal.ofBits .f32 0x00000000#32))
      (Ideal.ofBits .f32 0x00000000#32) (ix1 q) = _
  rw [Ideal.ofBits_zero_f32, Ideal.hostReduceAdd_single reducesTo_S45x128_S45_d1 (by decide : S45x128.Reduces [1] S45)]
  refine congrArg (fun s => (0 : EReal) + s) (Finset.sum_congr rfl fun l _ => ?_)
  rw [Ideal.hostReduceAdd_single reducesTo_S2x45x128_S45x128_d0 (by decide : S2x45x128.Reduces [0] S45x128)]
  refine congrArg (fun s => (0 : EReal) + s) (Finset.sum_congr rfl fun g _ => congrArg A ?_)
  funext a
  match a with
  | ⟨0, _⟩ => exact Fin.ext rfl
  | ⟨1, _⟩ => exact Fin.ext rfl
  | ⟨2, _⟩ => exact Fin.ext rfl

/-- A bin's term, entrywise: the specification's term of the bin's count, sum of confidences and sum of labels. -/
theorem tailTerms_apply (v : S45.Idx → EReal) (j : S15.Idx) :
    tailTerms (F := Ideal) v j = Cert.Calib.term (tailCnt (F := Ideal) v j) (tailConf (F := Ideal) v j) (tailLab (F := Ideal) v j) := rfl

/-- The three slices read at a bin: statistic k of bin n is entry 15 k + n of the 45. -/
theorem tailCnt_apply (v : S45.Idx → EReal) (n : Fin 15) (h : 15 * (0 : Fin 3).val + n.val < 45) :
    tailCnt (F := Ideal) v (ix1 n) = v (ix1 ⟨15 * (0 : Fin 3).val + n.val, h⟩) :=
  extractStridedSlice_apply _ _ _ _ _ (fun a => match a with | ⟨0, _⟩ => by simp)
theorem tailConf_apply (v : S45.Idx → EReal) (n : Fin 15) (h : 15 * (1 : Fin 3).val + n.val < 45) :
    tailConf (F := Ideal) v (ix1 n) = v (ix1 ⟨15 * (1 : Fin 3).val + n.val, h⟩) :=
  extractStridedSlice_apply _ _ _ _ _ (fun a => match a with | ⟨0, _⟩ => by simp)
theorem tailLab_apply (v : S45.Idx → EReal) (n : Fin 15) (h : 15 * (2 : Fin 3).val + n.val < 45) :
    tailLab (F := Ideal) v (ix1 n) = v (ix1 ⟨15 * (2 : Fin 3).val + n.val, h⟩) :=
  extractStridedSlice_apply _ _ _ _ _ (fun a => match a with | ⟨0, _⟩ => by simp)

/-- The epilogue of the 45 statistics is the specification's result of them. -/
theorem tailEpi_apply (v : S45.Idx → EReal) (i : S1.Idx) :
    tailEpi (F := Ideal) v i
      = Cert.Calib.ece (fun k n => v (ix1 ⟨15 * k.val + n.val, by have := k.isLt; have := n.isLt; omega⟩)) := by
  unfold tailEpi Cert.Calib.ece
  have hcast : ∀ w : S_.Idx → EReal, shapeCast S1 w shapeCasts_S_S1 i = w ix0 :=
    fun w => congrArg w (funext fun a => a.elim0)
  rw [hcast]
  show Ideal.hostReduceAdd reducesTo_S15_S_d0 (tailTerms (F := Ideal) v) (Ideal.ofBits .f32 0x00000000#32) ix0 = _
  rw [Ideal.hostReduceAdd_total reducesTo_S15_S_d0 (fun b => b.elim0), sum_idx1]
  refine congrArg (fun s => Ideal.ofBits .f32 0x00000000#32 + s) (Finset.sum_congr rfl fun n _ => ?_)
  rw [tailTerms_apply, tailCnt_apply, tailConf_apply, tailLab_apply]

/-- THE TAIL READ: the host operations after the region compute the specification's result of the statistics
    0 + ∑ over lanes (0 + ∑ over the two halves) of the region's output array, row 15 k + n for statistic k of bin n. -/
theorem tail_read (A : S2x45x128.Idx → EReal) (i : S1.Idx) :
    tailOf (F := Ideal) A i = Cert.Calib.ece (fun k n => (0 : EReal) + ∑ l : Fin 128, ((0 : EReal) + ∑ g : Fin 2,
      A (ValueIdx.ix3 g ⟨15 * k.val + n.val, by have := k.isLt; have := n.isLt; omega⟩ l))) := by
  unfold tailOf
  rw [tailEpi_apply]
  refine congrArg Cert.Calib.ece (funext fun k => funext fun n => ?_)
  exact tailStats_apply A _

end Cert.KernelIdeal.Tile

end
-- ==== Proof.CalibBridge.lean ====
/-
  The tiled form of the calibration histogram equals the direct form, over the extended reals, for real logits and
  labels.

  The steps. (1) The indicator of a bin is the real 1 on the bin and 0 off it, so the masked form's weight is the
  direct form's addend on the bin and zero off it. (2) The bin word is clamped to the signed range 0 … 14, so it is one
  of fifteen distinct words, and a sample is in exactly one bin. (3) For bin 14 a tile-lane cell is the whole-lane
  total minus the running sum of the other fourteen masked sums; with real addends this difference is the masked sum
  for bin 14 — the one place a cancellation is used, and the reason the logits and labels are assumed real. (4) The
  tiling (lane, half, tile of the half, row) ↦ ((64 g + s) · 4096 + r) · 128 + l runs once through all 2^26 samples: a
  sum over 0 … m·n-1 splits into m consecutive blocks of n, three times over. (5) A sum over the samples of a bin is
  the sum over all samples of the addend masked by the bin.
-/
import proofs.«109002_j88493506167218_2_alg».proof.Proof.Calib

noncomputable section

open scoped BigOperators

namespace Cert.Calib

open Idealize.ShloMosaic

/-- The pattern of the float one denotes the real one. -/
theorem ofBits_one : FloatOps.ofBits (F := Ideal) .f32 0x3F800000#32 = ((1 : ℝ) : EReal) := by
  show Ideal.ofBits .f32 0x3F800000#32 = _
  simp [Ideal.ofBits, Ideal.ieee, -EReal.coe_mul]; norm_num

/-- The pattern of the float 4096 denotes the real 4096. -/
theorem ofBits_4096 : FloatOps.ofBits (F := Ideal) .f32 0x45800000#32 = ((4096 : ℝ) : EReal) := by
  show Ideal.ofBits .f32 0x45800000#32 = _
  simp [Ideal.ofBits, Ideal.ieee, -EReal.coe_mul]; norm_num

/-- The indicator is one on its bin and zero off it. -/
theorem ind_eq (b : BitVec 32) (x : Ideal .f32) : ind b x = if binOf x = b then ((1 : ℝ) : EReal) else ((0 : ℝ) : EReal) := by
  show (((((IntOp.cmpi .eq (binOf x) b).setWidth 32).toInt : ℤ) : ℝ) : EReal) = _
  by_cases h : binOf x = b
  · have hb : (binOf x == b) = true := by simp [h]
    simp [IntOp.cmpi, hb, h]
  · have hb : (binOf x == b) = false := by simp [h]
    simp [IntOp.cmpi, hb, h]

/-- A word clamped to the signed range 0 … 14 is one of the fifteen words 0, …, 14. -/
theorem clamp_range (z : BitVec 32) :
    ∃ m : Fin 15, IntOp.minsi 14#32 (IntOp.maxsi 0#32 z) = BitVec.ofNat 32 m.val := by
  unfold IntOp.minsi IntOp.maxsi
  by_cases h0 : z.slt 0#32 = true
  · rw [if_pos h0]
    exact ⟨0, by decide⟩
  · rw [if_neg h0]
    by_cases h1 : (14#32).slt z = true
    · rw [if_pos h1]; exact ⟨14, by decide⟩
    · rw [if_neg h1]
      rw [BitVec.slt_iff_toInt_lt] at h0 h1
      have hz := BitVec.toInt_eq_toNat_cond z
      have hlt := z.isLt
      have e14 : (14#32).toInt = 14 := by decide
      have e0 : (0#32).toInt = 0 := by decide
      rw [e14] at h1; rw [e0] at h0
      have : z.toNat < 15 := by
        split_ifs at hz <;> omega
      exact ⟨⟨z.toNat, this⟩, by simp⟩

/-- The fifteen words 0, …, 14 are distinct. -/
theorem ofNat_inj15 {a b : ℕ} (ha : a < 15) (hb : b < 15) : BitVec.ofNat 32 a = BitVec.ofNat 32 b ↔ a = b := by
  constructor
  · intro h
    have := congrArg BitVec.toNat h
    simp only [BitVec.toNat_ofNat] at this
    omega
  · intro h; rw [h]

/-- Read as a signed integer, the word of `n < 15` is `n`. -/
theorem toInt_ofNat15 {n : ℕ} (hn : n < 15) : (BitVec.ofNat 32 n).toInt = (n : ℤ) := by
  rw [BitVec.toInt_eq_toNat_cond, BitVec.toNat_ofNat]
  have : n % 2 ^ 32 = n := Nat.mod_eq_of_lt (by omega)
  rw [this]
  split_ifs <;> omega

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A left fold of additions from zero over 0, …, n-1 is the finite sum. -/
theorem foldl_add_range {M : Type*} [AddCommMonoid M] (f : ℕ → M) (n : ℕ) :
    (List.range n).foldl (fun a b => a + f b) 0 = ∑ b ∈ Finset.range n, f b := by
  induction n with
  | zero => simp
  | succ n ih =>
    rw [List.range_succ, List.foldl_append, ih, Finset.sum_range_succ]
    rfl

/-- A sum over 0, …, m·n-1 splits into m consecutive blocks of n. -/
theorem sum_range_mul {M : Type*} [AddCommMonoid M] (F : ℕ → M) (m n : ℕ) :
    ∑ i ∈ Finset.range (m * n), F i = ∑ a ∈ Finset.range m, ∑ b ∈ Finset.range n, F (a * n + b) := by
  induction m with
  | zero => simp
  | succ m ih =>
    rw [Nat.succ_mul, Finset.sum_range_add, ih, Finset.sum_range_succ]

/-- The masked form's weight is the direct form's addend on the bin and zero off it. -/
theorem wt_eq (k : Fin 3) (b : BitVec 32) (x y : Ideal .f32) :
    wt k b x y = if binOf x = b then upd k x y else 0 := by
  fin_cases k
  · show ind b x = if binOf x = b then FloatOps.ofBits .f32 0x3F800000#32 else 0
    rw [ind_eq, ofBits_one]; rfl
  · show ind b x * conf x = if binOf x = b then conf x else 0
    rw [ind_eq]; split_ifs <;> simp
  · show ind b x * y = if binOf x = b then y else 0
    rw [ind_eq]; split_ifs <;> simp

/-- What a sample with a real logit and a real label adds is a real. -/
theorem upd_real (k : Fin 3) (x y : Ideal .f32) (hx : ∃ r : ℝ, x = (r : EReal)) (hy : ∃ r : ℝ, y = (r : EReal)) :
    ∃ r : ℝ, upd k x y = (r : EReal) := by
  obtain ⟨a, rfl⟩ := hx
  obtain ⟨c, rfl⟩ := hy
  fin_cases k
  · exact ⟨1, ofBits_one⟩
  · exact ⟨(1 + Real.exp (-a))⁻¹, Ideal.logistic_coe a⟩
  · exact ⟨c, rfl⟩

/-- A sequence of reals read at any natural number is a real. -/
theorem ext_real (X : Fin NS → Ideal .f32) (hX : ∀ e, ∃ r : ℝ, X e = (r : EReal)) (j : ℕ) :
    ∃ r : ℝ, ext X j = (r : EReal) := by
  unfold ext
  split_ifs with h
  · exact hX ⟨j, h⟩
  · exact ⟨0, rfl⟩

/-- The one cancellation. Rows carry real weights u and bin words among 0, …, 14. The sum of all the weights, minus the
    masked sums for bins 0, …, 13, is the masked sum for bin 14: each row is in exactly one bin. -/
theorem masked_complement {ι : Type*} [Fintype ι] (u : ι → ℝ) (β : ι → BitVec 32)
    (hβ : ∀ r, ∃ m : Fin 15, β r = BitVec.ofNat 32 m.val) :
    ((∑ r, u r : ℝ) : EReal)
        - ∑ b ∈ Finset.range 14, ∑ r, (if β r = BitVec.ofNat 32 b then ((u r : ℝ) : EReal) else 0)
      = ∑ r, (if β r = BitVec.ofNat 32 14 then ((u r : ℝ) : EReal) else 0) := by
  have hite : ∀ (b : ℕ) (r : ι), (if β r = BitVec.ofNat 32 b then ((u r : ℝ) : EReal) else 0)
      = (((if β r = BitVec.ofNat 32 b then u r else 0 : ℝ)) : EReal) := by
    intro b r; split_ifs <;> rfl
  simp only [hite, ← coe_sum, ← EReal.coe_sub]
  refine congrArg _ ?_
  rw [Finset.sum_comm, ← Finset.sum_sub_distrib]
  refine Finset.sum_congr rfl fun r _ => ?_
  obtain ⟨m, hm⟩ := hβ r
  rw [hm]
  have hsum : ∑ b ∈ Finset.range 14, (if BitVec.ofNat 32 m.val = BitVec.ofNat 32 b then u r else 0)
      = ∑ b ∈ Finset.range 14, (if m.val = b then u r else 0) := by
    refine Finset.sum_congr rfl fun b hb => ?_
    have hb' : b < 15 := by have := Finset.mem_range.mp hb; omega
    simp only [ofNat_inj15 m.isLt hb']
  rw [hsum, Finset.sum_ite_eq]
  have h14 : BitVec.ofNat 32 m.val = BitVec.ofNat 32 14 ↔ m.val = 14 := ofNat_inj15 m.isLt (by norm_num)
  simp only [h14]
  have := m.isLt
  by_cases h : m.val < 14
  · rw [if_pos (Finset.mem_range.mpr h), if_neg (by omega)]; ring
  · rw [if_neg (by rw [Finset.mem_range]; exact h), if_pos (by omega)]; ring

/-- A tile-lane cell is the masked sum for its bin, for bin 14 too: there it is the whole-lane total minus the running
    sum of the other fourteen masked sums, and the logits and labels being real, the cancellation above applies. -/
theorem cell_eq (k : Fin 3) (X Y : Fin NS → Ideal .f32)
    (hX : ∀ e, ∃ r : ℝ, X e = (r : EReal)) (hY : ∀ e, ∃ r : ℝ, Y e = (r : EReal))
    (n : Fin 15) (p : ℕ) (l : Fin 128) :
    cell k n X Y p l = part k (BitVec.ofNat 32 n.val) X Y p l := by
  unfold cell
  by_cases hn : n.val < 14
  · rw [if_pos hn]
  · rw [if_neg hn]
    have hn14 : n.val = 14 := by have := n.isLt; omega
    rw [hn14]
    -- what each row adds is a real
    have hu : ∀ r : Fin 4096, ∃ a : ℝ,
        upd k (ext X (sampleAt p r l)) (ext Y (sampleAt p r l)) = (a : EReal) :=
      fun r => upd_real k _ _ (ext_real X hX _) (ext_real Y hY _)
    choose u hu using hu
    have hpart : ∀ b : BitVec 32, part k b X Y p l
        = ∑ r : Fin 4096, (if binOf (ext X (sampleAt p r l)) = b then ((u r : ℝ) : EReal) else 0) := by
      intro b; unfold part
      refine Finset.sum_congr rfl fun r _ => ?_
      rw [wt_eq, hu]
    have htotal : total k X Y p l = ((∑ r : Fin 4096, u r : ℝ) : EReal) := by
      rw [coe_sum]
      simp only [← hu]
      fin_cases k
      · show FloatOps.ofBits .f32 0x45800000#32 = ∑ r : Fin 4096, FloatOps.ofBits .f32 0x3F800000#32
        rw [ofBits_4096, ofBits_one, ← coe_sum]; simp
      · rfl
      · rfl
    have haccum : accum k X Y p l = ∑ b ∈ Finset.range 14, part k (BitVec.ofNat 32 b) X Y p l := by
      unfold accum; exact foldl_add_range _ _
    rw [htotal, haccum]
    simp only [hpart]
    exact masked_complement u _ (fun r => by unfold binOf; exact clamp_range _)

/-- The tiling is a re-indexing: lane l, half g, tile s of the half, row r run once through all the samples, sample
    number ((64 g + s) · 4096 + r) · 128 + l. -/
theorem sum_tiles {M : Type*} [AddCommMonoid M] (F : ℕ → M) :
    ∑ l : Fin 128, ∑ g : Fin 2, ∑ s ∈ Finset.range 64, ∑ r : Fin 4096, F (sampleAt (64 * g.val + s) r l)
      = ∑ e : Fin NS, F e.val := by
  rw [Fin.sum_univ_eq_sum_range (fun i => F i) NS]
  have hNS : NS = 2 * 64 * 4096 * 128 := by norm_num [NS]
  rw [hNS, sum_range_mul, sum_range_mul, sum_range_mul]
  simp only [Finset.sum_range, sampleAt]
  rw [Finset.sum_comm]
  refine Finset.sum_congr rfl fun g _ => ?_
  rw [Finset.sum_comm]
  refine Finset.sum_congr rfl fun s _ => ?_
  rw [Finset.sum_comm]
  refine Finset.sum_congr rfl fun r _ => ?_
  refine Finset.sum_congr rfl fun l _ => ?_
  rw [Nat.mul_comm 64 (g : ℕ)]

/-- The tiled form of the histogram is the direct form, for real logits and labels. -/
theorem kerBin_eq_refBin (k : Fin 3) (X Y : Fin NS → Ideal .f32)
    (hX : ∀ e, ∃ r : ℝ, X e = ((r : ℝ) : EReal)) (hY : ∀ e, ∃ r : ℝ, Y e = ((r : ℝ) : EReal)) (n : Fin 15) :
    kerBin k X Y n = refBin k X Y n := by
  unfold kerBin refBin
  simp only [zero_add, cell_eq k X Y hX hY n]
  unfold part
  refine (sum_tiles (fun j => wt k (BitVec.ofNat 32 n.val) (ext X j) (ext Y j))).trans ?_
  rw [Finset.sum_filter]
  refine Finset.sum_congr rfl fun e _ => ?_
  have hext : ∀ Z : Fin NS → Ideal .f32, ext Z e.val = Z e := by
    intro Z; unfold ext; rw [dif_pos e.isLt]
  rw [hext, hext, wt_eq]
  have hiff : (binOf (X e)).toInt = (n.val : ℤ) ↔ binOf (X e) = BitVec.ofNat 32 n.val := by
    constructor
    · intro h; apply BitVec.eq_of_toInt_eq; rw [h, toInt_ofNat15 n.isLt]
    · intro h; rw [h, toInt_ofNat15 n.isLt]
  simp only [hiff]

end Cert.Calib

end
-- ==== Proof.KerValue.lean ====
/-
  The kernel program's result, as the calibration error of the direct-form statistics.

  The region's output array holds, at `(g, row, l)`, zero plus the sum over the 64 tiles of half `g` of the tile's term
  at `(row, l)`; row `15·k + n` is statistic `k` of bin `n`, and a tile's term there is the specification's cell (the
  tile's blocks being runs of the two argument sequences). The host operations after the region sum the array over the
  two halves and then over the 128 lanes — that is the tiled form of the statistic — and apply the final formula to the
  three statistics. For real logits and labels the tiled form is the direct form.
-/
import proofs.«109002_j88493506167218_2_alg».proof.Proof.KerAcc
import proofs.«109002_j88493506167218_2_alg».proof.Proof.KerRow
import proofs.«109002_j88493506167218_2_alg».proof.Proof.KerEntry
import proofs.«109002_j88493506167218_2_alg».proof.Proof.KerTail
import proofs.«109002_j88493506167218_2_alg».proof.Proof.CalibBridge

set_option maxRecDepth 16384

noncomputable section

open scoped BigOperators

namespace Cert.KernelIdeal.Tile

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- A tile's term at row `15·k + n` and a lane is the specification's cell for statistic `k`, bin `n`. -/
theorem tileTerm_eq (c : Dev nD) (p : Nat) (hp : p < 128) (k : Fin 3) (n : Fin 15) (l : Fin 128) :
    tileTerm m c p (15 * k.val + n.val) l = Cert.Calib.cell k n (argX m c) (argY m c) p l := by
  have hN : cfg0.N = 128 := N_0
  have hp' : p < cfg0.N := by omega
  unfold tileTerm
  rw [dif_pos hp']
  have e1 : (15 * k.val + n.val) / 15 = k.val := by have := n.isLt; omega
  have e2 : (15 * k.val + n.val) % 15 = n.val := by have := n.isLt; omega
  rw [e1, e2]
  exact vRow_apply k n (argX m c) (argY m c) p _ _ (fun r l => iblk0_apply m c p hp' r l)
    (fun r l => iblk1_apply m c p hp' r l) l

/-- The zero pattern denotes zero. -/
theorem zero_lit : FloatOps.ofBits (F := Ideal) .f32 0x00000000#32 = (0 : EReal) := Ideal.ofBits_zero_f32

/-- Entry `(g, row, l)` of the output array: zero plus the sum of the terms of the 64 tiles of half `g`. -/
theorem finalArr_apply (c : Dev nD) (g : Fin 2) (row : Fin 45) (l : Fin 128) :
    finalArr m c (ix3 g row l) = (0 : EReal) + ∑ s ∈ Finset.range 64, tileTerm m c (64 * g.val + s) row.val l := by
  unfold finalArr
  show FloatOps.ofBits (F := Ideal) .f32 0x00000000#32 + (∑ s ∈ Finset.range 64, tileTerm m c (64 * g.val + s) row.val l) = _
  rw [zero_lit]

/-- Summed over the two halves and the lanes, row `15·k + n` of the output array is the tiled form of statistic `k` of
    bin `n`. -/
theorem finalArr_sum (c : Dev nD) (k : Fin 3) (n : Fin 15) :
    (0 : EReal) + ∑ l : Fin 128, ((0 : EReal) + ∑ g : Fin 2,
        finalArr m c (ix3 g (⟨15 * k.val + n.val, by have := k.isLt; have := n.isLt; omega⟩ : Fin 45) l))
      = Cert.Calib.kerBin k (argX m c) (argY m c) n := by
  unfold Cert.Calib.kerBin
  congr 1
  refine Finset.sum_congr rfl fun l _ => ?_
  congr 1
  refine Finset.sum_congr rfl fun g _ => ?_
  rw [finalArr_apply]
  congr 1
  refine Finset.sum_congr rfl fun s hs => ?_
  have hs' := Finset.mem_range.mp hs
  have hg := g.isLt
  exact tileTerm_eq m c (64 * g.val + s) (by omega) k n l

/-- The kernel program's result entry is the calibration error of the direct-form statistics of its two arguments,
    when every logit and every label is a real. -/
theorem kernel_result (c : Dev nD)
    (hX : ∀ e, ∃ r : ℝ, argX m c e = ((r : ℝ) : EReal)) (hY : ∀ e, ∃ r : ℝ, argY m c e = ((r : ℝ) : EReal)) (i : S1.Idx) :
    Pipeline.afterTail₀ cfgs (dats m) 0 (V0 m) [hostOps1, hostOps1_1, hostOps1_2, hostOps1_3, hostOps1_4] c main_v20 i
      = Cert.Calib.ece (fun k n => Cert.Calib.refBin k (argX m c) (argY m c) n) := by
  refine (congrFun (tail_run m c) i).trans ?_
  refine (congrFun (congrArg (tailOf (F := Ideal)) (final_arr m c)) i).trans ?_
  refine (tail_read (finalArr m c) i).trans ?_
  refine congrArg Cert.Calib.ece (funext fun k => funext fun n => ?_)
  exact (finalArr_sum m c k n).trans (Cert.Calib.kerBin_eq_refBin k _ _ hX hY n)

end Cert.KernelIdeal.Tile

end
-- ==== Proof.lean ====
/-
  Both programs compute the expected calibration error of 67,108,864 samples (a logit and a label each) over 15 bins.
  A sample's confidence is the logistic function of its logit; its bin is `min 14 (max 0 (⌈15 · confidence⌉ - 1))`; per
  bin three statistics are kept — the count, the sum of confidences, the sum of labels — and the result is the sum over
  the non-empty bins of `|sum of confidences / count - sum of labels / count| · (count / 2^26)`.

  The reference adds each sample directly into its bin's three statistics. The kernel walks the samples in 128 tiles of
  4096 rows by 128 lanes, two halves of 64 tiles; per tile and lane it sums bins 0 … 13 through the 0/1 indicator of the
  bin and obtains bin 14 as the whole-lane total minus the other fourteen (the bins partition the samples); it
  accumulates a half's tiles in a 45-row block (row `15·k + n`: statistic `k` of bin `n`), and the host sums the two
  halves and then the lanes before applying the same final formula.

  Over the extended reals the two are equal when every logit and label is a real: sums may be regrouped freely, and
  the one cancellation (total minus the other bins) is between reals. The precondition states exactly that finiteness.
  The logistic function the kernel applies as one operation and the reference spells out as `1 / (1 + e^(-x))` are one
  function there.

  The modules: `Calib` states the histogram in both forms and the final formula; `CalibBridge` proves the two forms
  equal for real inputs; `RefBins` reads the reference's result as the formula of the direct form and `FiniteInputs`
  reads the precondition as "every logit and label is a real"; `KerTile` names the body's arithmetic for one tile,
  `KerBlock` and `KerBlockA` read what the body leaves in the 45-row block at a later and at a first tile of a half,
  `KerAcc` sums a half's tiles into the output array, `KerRow` and `KerEntry` read a tile's term as the
  specification's cell of the argument sequences, `KerTail` reads the host operations after the region, and
  `KerValue` joins them. The idealization rewrote nothing, so `preserves` is `True`.
-/
import proofs.«109002_j88493506167218_2_alg».proof.Defs
import proofs.«109002_j88493506167218_2_alg».proof.Proof.Gen.Kernel
import proofs.«109002_j88493506167218_2_alg».proof.Proof.Gen.Kernel.Skeleton
import proofs.«109002_j88493506167218_2_alg».proof.Proof.Gen.Kernel.Launch
import proofs.«109002_j88493506167218_2_alg».proof.Proof.Gen.Kernel.Points
import proofs.«109002_j88493506167218_2_alg».proof.Proof.Gen.Kernel.Frame
import proofs.«109002_j88493506167218_2_alg».proof.Proof.Gen.KernelIdeal
import proofs.«109002_j88493506167218_2_alg».proof.Proof.Gen.KernelIdeal.Skeleton
import proofs.«109002_j88493506167218_2_alg».proof.Proof.Gen.KernelIdeal.Launch
import proofs.«109002_j88493506167218_2_alg».proof.Proof.Gen.KernelIdeal.Points
import proofs.«109002_j88493506167218_2_alg».proof.Proof.Gen.KernelIdeal.Frame
import proofs.«109002_j88493506167218_2_alg».proof.Proof.Gen.ReferenceIdeal
import proofs.«109002_j88493506167218_2_alg».proof.Proof.Gen.Pre_finite_inputs
import proofs.«109002_j88493506167218_2_alg».proof.Proof.RefRunP
import proofs.«109002_j88493506167218_2_alg».proof.Proof.RefReadP
import proofs.«109002_j88493506167218_2_alg».proof.Proof.RefBins
import proofs.«109002_j88493506167218_2_alg».proof.Proof.FiniteInputs
import proofs.«109002_j88493506167218_2_alg».proof.Proof.KerValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The two idealized programs, run from memories agreeing on the arguments, end with the same result entry: the
    calibration error of the direct-form statistics of the (shared) arguments. -/
theorem algebraic : Cert.algebraic_KernelIdeal_ReferenceIdeal := by
  intro m ρ m' ρ' hpre hagree
  refine ⟨fun c => fun _ => Cert.Calib.ece (fun k n => Cert.Calib.refBin k
      (Cert.KernelIdeal.Tile.argX m c) (Cert.KernelIdeal.Tile.argY m c) n), ?_, ?_⟩
  · refine (θ_run Cert.KernelIdeal.defs _ _).mono (fun r h c => ⟨?_, ?_, ?_⟩) (Cert.KernelIdeal.Gen.run_main m ρ)
    · obtain ⟨hX, hY⟩ := Cert.Pre_finite_inputs.Finite.finite_of_pre _ _ (hpre c)
      rw [(h c).2 Cert.KernelIdeal.main_v20 (Pipeline.mem_restRefs_of Cert.KernelIdeal.main_v20 (by decide) (by decide))]
      funext i
      exact Cert.KernelIdeal.Tile.kernel_result m c (fun e => hX (ix1 e)) (fun e => hY (ix1 e)) i
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨?_, (h c).2⟩)
      (Cert.ReferenceIdeal.ValueP.run (F := Ideal) m' ρ')
    rw [(h c).1]
    funext i
    rw [Cert.ReferenceIdeal.Bins.result_eq m' c i, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
